-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x32 : Shape := ⟨2, ![10000, 32]⟩
abbrev S2x320000 : Shape := ⟨2, ![2, 320000]⟩
abbrev S1x168 : Shape := ⟨2, ![1, 168]⟩
abbrev S1x1 : Shape := ⟨2, ![1, 1]⟩
abbrev S64x32 : Shape := ⟨2, ![64, 32]⟩
abbrev S64 : Shape := ⟨1, ![64]⟩
abbrev S64x64 : Shape := ⟨2, ![64, 64]⟩
abbrev S64x169 : Shape := ⟨2, ![64, 169]⟩
abbrev S128x640064 : Shape := ⟨2, ![128, 640064]⟩
abbrev S128 : Shape := ⟨1, ![128]⟩
abbrev S10000x128 : Shape := ⟨2, ![10000, 128]⟩
abbrev S10000 : Shape := ⟨1, ![10000]⟩
abbrev S_ : Shape := ⟨0, ![]⟩

class Facts : Prop where
  bcast_S_S10000x32 : S_.BroadcastsInDim S10000x32 (![] : Fin 0 → Fin S10000x32.rank)
  reducesTo_S10000x32_S_d0_1 : S10000x32.ReducesTo [0, 1] S_
  h_S_ : 0 < S_.numel
  bcast_S_S1x168 : S_.BroadcastsInDim S1x168 (![] : Fin 0 → Fin S1x168.rank)
  reducesTo_S1x168_S_d0_1 : S1x168.ReducesTo [0, 1] S_
  bcast_S_S1x1 : S_.BroadcastsInDim S1x1 (![] : Fin 0 → Fin S1x1.rank)
  reducesTo_S1x1_S_d0_1 : S1x1.ReducesTo [0, 1] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x169 : S_.BroadcastsInDim S64x169 (![] : Fin 0 → Fin S64x169.rank)
  reducesTo_S64x169_S_d0_1 : S64x169.ReducesTo [0, 1] S_
  bcast_S_S128x640064 : S_.BroadcastsInDim S128x640064 (![] : Fin 0 → Fin S128x640064.rank)
  reducesTo_S128x640064_S_d0_1 : S128x640064.ReducesTo [0, 1] S_
  bcast_S_S128 : S_.BroadcastsInDim S128 (![] : Fin 0 → Fin S128.rank)
  reducesTo_S128_S_d0 : S128.ReducesTo [0] S_
  bcast_S_S10000x128 : S_.BroadcastsInDim S10000x128 (![] : Fin 0 → Fin S10000x128.rank)
  reducesTo_S10000x128_S_d0_1 : S10000x128.ReducesTo [0, 1] S_
  bcast_S_S10000 : S_.BroadcastsInDim S10000 (![] : Fin 0 → Fin S10000.rank)
  reducesTo_S10000_S_d0 : S10000.ReducesTo [0] S_

variable [Facts]

def fn_part4 {F : FTy → Type} [FloatOps F] (main_arg15 : FVec F S10000 .f32) (main_v63 : IVec S_ 1) (main_v67 : IVec S_ 1) : IVec S_ 1 :=
  let main_v68 : IVec S_ 1 := andi main_v63 main_v67
  let main_v69 : FVec F S10000 .f32 := Host.absf main_arg15
  let main_cst_26 : FVec F S_ .f32 := constant S_ .f32 0x7F800000#32
  let main_v70 : FVec F S10000 .f32 := broadcastInDim S10000 ![] bcast_S_S10000 main_cst_26
  let main_v71 : IVec S10000 1 := cmpf .olt main_v69 main_v70
  let main_c_27 : IVec S_ 1 := constantI S_ 1 1#1
  let main_v72 : IVec S_ 1 := (fun x v => Host.reduce IntOp.andi x v reducesTo_S10000_S_d0 h_S_) main_v71 main_c_27
  let main_v73 : IVec S_ 1 := andi main_v68 main_v72
  main_v73

def fn_part3 {F : FTy → Type} [FloatOps F] (main_arg12 : FVec F S128x640064 .f32) (main_arg13 : FVec F S128 .f32) (main_arg14 : FVec F S10000x128 .f32) (main_arg15 : FVec F S10000 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x640064 .f32 := Host.absf main_arg12
  let main_cst_20 : FVec F S_ .f32 := constant S_ .f32 0x7F800000#32
  let main_v55 : FVec F S128x640064 .f32 := broadcastInDim S128x640064 ![] bcast_S_S128x640064 main_cst_20
  let main_v56 : IVec S128x640064 1 := cmpf .olt main_v54 main_v55
  let main_c_21 : IVec S_ 1 := constantI S_ 1 1#1
  let main_v57 : IVec S_ 1 := (fun x v => Host.reduce IntOp.andi x v reducesTo_S128x640064_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S10000x128 .f32 := Host.absf main_arg14
  let main_cst_24 : FVec F S_ .f32 := constant S_ .f32 0x7F800000#32
  let main_v65 : FVec F S10000x128 .f32 := broadcastInDim S10000x128 ![] bcast_S_S10000x128 main_cst_24
  let main_v66 : IVec S10000x128 1 := cmpf .olt main_v64 main_v65
  let main_c_25 : IVec S_ 1 := constantI S_ 1 1#1
  let main_v67 : IVec S_ 1 := (fun x v => Host.reduce IntOp.andi x v reducesTo_S10000x128_S_d0_1 h_S_) main_v66 main_c_25
  fn_part4 (F := F) main_arg15 main_v63 main_v67

def fn_part2 {F : FTy → Type} [FloatOps F] (main_arg8 : FVec F S64x169 .f32) (main_arg9 : FVec F S64 .f32) (main_arg10 : FVec F S64x64 .f32) (main_arg11 : FVec F S64 .f32) (main_arg12 : FVec F S128x640064 .f32) (main_arg13 : FVec F S128 .f32) (main_arg14 : FVec F S10000x128 .f32) (main_arg15 : FVec F S10000 .f32) (main_v33 : IVec S_ 1) : IVec S_ 1 :=
  let main_v34 : FVec F S64x169 .f32 := Host.absf main_arg8
  let main_cst_12 : FVec F S_ .f32 := constant S_ .f32 0x7F800000#32
  let main_v35 : FVec F S64x169 .f32 := broadcastInDim S64x169 ![] bcast_S_S64x169 main_cst_12
  let main_v36 : IVec S64x169 1 := cmpf .olt main_v34 main_v35
  let main_c_13 : IVec S_ 1 := constantI S_ 1 1#1
  let main_v37 : IVec S_ 1 := (fun x v => Host.reduce IntOp.andi x v reducesTo_S64x169_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_v48 main_v49 main_v50

def fn_part1 {F : FTy → Type} [FloatOps F] (main_arg5 : FVec F S64 .f32) (main_arg6 : FVec F S64x64 .f32) (main_arg7 : FVec F S64 .f32) (main_arg8 : FVec F S64x169 .f32) (main_arg9 : FVec F S64 .f32) (main_arg10 : FVec F S64x64 .f32) (main_arg11 : FVec F S64 .f32) (main_arg12 : FVec F S128x640064 .f32) (main_arg13 : FVec F S128 .f32) (main_arg14 : FVec F S10000x128 .f32) (main_arg15 : FVec F S10000 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S10000x32 .f32) (main_arg1 : IVec S2x320000 32) (main_arg2 : FVec F S1x168 .f32) (main_arg3 : FVec F S1x1 .f32) (main_arg4 : FVec F S64x32 .f32) (main_arg5 : FVec F S64 .f32) (main_arg6 : FVec F S64x64 .f32) (main_arg7 : FVec F S64 .f32) (main_arg8 : FVec F S64x169 .f32) (main_arg9 : FVec F S64 .f32) (main_arg10 : FVec F S64x64 .f32) (main_arg11 : FVec F S64 .f32) (main_arg12 : FVec F S128x640064 .f32) (main_arg13 : FVec F S128 .f32) (main_arg14 : FVec F S10000x128 .f32) (main_arg15 : FVec F S10000 .f32) : IVec S_ 1 :=
  let main_v0 : FVec F S10000x32 .f32 := Host.absf main_arg0
  let main_cst : FVec F S_ .f32 := constant S_ .f32 0x7F800000#32
  let main_v1 : FVec F S10000x32 .f32 := broadcastInDim S10000x32 ![] bcast_S_S10000x32 main_cst
  let main_v2 : IVec S10000x32 1 := cmpf .olt main_v0 main_v1
  let main_c : IVec S_ 1 := constantI S_ 1 1#1
  let main_v3 : IVec S_ 1 := (fun x v => Host.reduce IntOp.andi x v reducesTo_S10000x32_S_d0_1 h_S_) main_v2 main_c
  let main_v4 : FVec F S1x168 .f32 := Host.absf main_arg2
  let main_cst_0 : FVec F S_ .f32 := constant S_ .f32 0x7F800000#32
  let main_v5 : FVec F S1x168 .f32 := broadcastInDim S1x168 ![] bcast_S_S1x168 main_cst_0
  let main_v6 : IVec S1x168 1 := cmpf .olt main_v4 main_v5
  let main_c_1 : IVec S_ 1 := constantI S_ 1 1#1
  let main_v7 : IVec S_ 1 := (fun x v => Host.reduce IntOp.andi x v reducesTo_S1x168_S_d0_1 h_S_) main_v6 main_c_1
  let main_v8 : IVec S_ 1 := andi main_v3 main_v7
  let main_v9 : FVec F S1x1 .f32 := Host.absf main_arg3
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S10000x32 : Shape := ⟨2, ![10000, 32]⟩
abbrev S2x320000 : Shape := ⟨2, ![2, 320000]⟩
abbrev S1x168 : Shape := ⟨2, ![1, 168]⟩
abbrev S1x1 : Shape := ⟨2, ![1, 1]⟩
abbrev S64x32 : Shape := ⟨2, ![64, 32]⟩
abbrev S64 : Shape := ⟨1, ![64]⟩
abbrev S64x64 : Shape := ⟨2, ![64, 64]⟩
abbrev S64x169 : Shape := ⟨2, ![64, 169]⟩
abbrev S128x640064 : Shape := ⟨2, ![128, 640064]⟩
abbrev S128 : Shape := ⟨1, ![128]⟩
abbrev S10000x128 : Shape := ⟨2, ![10000, 128]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S32x64 : Shape := ⟨2, ![32, 64]⟩
abbrev S10000x64 : Shape := ⟨2, ![10000, 64]⟩
abbrev S330000x64 : Shape := ⟨2, ![330000, 64]⟩
abbrev S1x64 : Shape := ⟨2, ![1, 64]⟩
abbrev S1x640000 : Shape := ⟨2, ![1, 640000]⟩
abbrev S1x169 : Shape := ⟨2, ![1, 169]⟩
abbrev S169x64 : Shape := ⟨2, ![169, 64]⟩
abbrev S1x128 : Shape := ⟨2, ![1, 128]⟩
abbrev S1x32000 : Shape := ⟨2, ![1, 32000]⟩
abbrev S128x32000 : Shape := ⟨2, ![128, 32000]⟩
abbrev S128x64 : Shape := ⟨2, ![128, 64]⟩
abbrev S64x128 : Shape := ⟨2, ![64, 128]⟩
abbrev S128x10000 : Shape := ⟨2, ![128, 10000]⟩
abbrev S1x10000 : Shape := ⟨2, ![1, 10000]⟩

abbrev nBuf : Space → Nat
  | .hbm => 176
  | .vmem => 6
  | .smem => 0
  | _ => 0

abbrev hbmTy0_0 (i : Nat) : BufTy := match i % 128 with
  | 0 => ⟨S10000x32, .f32⟩
  | 1 => ⟨S2x320000, .i32⟩
  | 2 => ⟨S1x168, .f32⟩
  | 3 => ⟨S1x1, .f32⟩
  | 4 => ⟨S64x32, .f32⟩
  | 5 => ⟨S64, .f32⟩
  | 6 => ⟨S64x64, .f32⟩
  | 7 => ⟨S64, .f32⟩
  | 8 => ⟨S64x169, .f32⟩
  | 9 => ⟨S64, .f32⟩
  | 10 => ⟨S64x64, .f32⟩
  | 11 => ⟨S64, .f32⟩
  | 12 => ⟨S128x640064, .f32⟩
  | 13 => ⟨S128, .f32⟩
  | 14 => ⟨S10000x128, .f32⟩
  | 15 => ⟨S10000, .f32⟩
  | 16 => ⟨S1x320000, .i32⟩
  | 17 => ⟨S320000, .i32⟩
  | 18 => ⟨S1x320000, .i32⟩
  | 19 => ⟨S320000, .i32⟩
  | 20 => ⟨S10000, .i32⟩
  | 21 => ⟨S330000, .i32⟩
  | 22 => ⟨S330000, .i32⟩
  | 23 => ⟨S_, .f32⟩
  | 24 => ⟨S330000, .f32⟩
  | 25 => ⟨S_, .f32⟩
  | 26 => ⟨S10000, .f32⟩
  | 27 => ⟨S330000x1, .i32⟩
  | 28 => ⟨S10000, .f32⟩
  | 29 => ⟨S_, .f32⟩
  | 30 => ⟨S10000, .f32⟩
  | 31 => ⟨S10000, .i1⟩
  | 32 => ⟨S10000, .f32⟩
  | 33 => ⟨S_, .f32⟩
  | 34 => ⟨S_, .f32⟩
  | 35 => ⟨S10000, .f32⟩
  | 36 => ⟨S10000, .f32⟩
  | 37 => ⟨S_, .i32⟩
  | 38 => ⟨S330000, .i32⟩
  | 39 => ⟨S330000, .i1⟩
  | 40 => ⟨S_, .i32⟩
  | 41 => ⟨S330000, .i32⟩
  | 42 => ⟨S330000, .i32⟩
  | 43 => ⟨S330000, .i32⟩
  | 44 => ⟨S330000x1, .i32⟩
  | 45 => ⟨S330000, .f32⟩
  | 46 => ⟨S_, .i32⟩
  | 47 => ⟨S330000, .i32⟩
  | 48 => ⟨S330000, .i1⟩
  | 49 => ⟨S_, .i32⟩
  | 50 => ⟨S330000, .i32⟩
  | 51 => ⟨S330000, .i32⟩
  | 52 => ⟨S330000, .i32⟩
  | 53 => ⟨S330000x1, .i32⟩
  | 54 => ⟨S330000, .f32⟩
  | 55 => ⟨S330000, .f32⟩
  | 56 => ⟨S32x64, .f32⟩
  | 57 => ⟨S10000x64, .f32⟩
  | 58 => ⟨S_, .i32⟩
  | 59 => ⟨S330000, .i32⟩
  | 60 => ⟨S330000, .i1⟩
  | 61 => ⟨S_, .i32⟩
  | 62 => ⟨S330000, .i32⟩
  | 63 => ⟨S330000, .i32⟩
  | 64 => ⟨S330000, .i32⟩
  | 65 => ⟨S330000x1, .i32⟩
  | 66 => ⟨S330000x64, .f32⟩
  | 67 => ⟨S330000x1, .f32⟩
  | 68 => ⟨S330000x64, .f32⟩
  | 69 => ⟨S330000x64, .f32⟩
  | 70 => ⟨S_, .f32⟩
  | 71 => ⟨S10000x64, .f32⟩
  | 72 => ⟨S330000x1, .i32⟩
  | 73 => ⟨S10000x64, .f32⟩
  | 74 => ⟨S1x64, .f32⟩
  | 75 => ⟨S10000x64, .f32⟩
  | 76 => ⟨S10000x64, .f32⟩
  | 77 => ⟨S_, .f32⟩
  | 78 => ⟨S10000x64, .f32⟩
  | 79 => ⟨S10000x64, .f32⟩
  | 80 => ⟨S10000, .i32⟩
  | 81 => ⟨S330000, .i32⟩
  | 82 => ⟨S330000, .i32⟩
  | 83 => ⟨S_, .f32⟩
  | 84 => ⟨S330000, .f32⟩
  | 85 => ⟨S_, .f32⟩
  | 86 => ⟨S10000, .f32⟩
  | 87 => ⟨S330000x1, .i32⟩
  | 88 => ⟨S10000, .f32⟩
  | 89 => ⟨S_, .f32⟩
  | 90 => ⟨S10000, .f32⟩
  | 91 => ⟨S10000, .i1⟩
  | 92 => ⟨S10000, .f32⟩
  | 93 => ⟨S_, .f32⟩
  | 94 => ⟨S_, .f32⟩
  | 95 => ⟨S10000, .f32⟩
  | 96 => ⟨S10000, .f32⟩
  | 97 => ⟨S_, .i32⟩
  | 98 => ⟨S330000, .i32⟩
  | 99 => ⟨S330000, .i1⟩
  | 100 => ⟨S_, .i32⟩
  | 101 => ⟨S330000, .i32⟩
  | 102 => ⟨S330000, .i32⟩
  | 103 => ⟨S330000, .i32⟩
  | 104 => ⟨S330000x1, .i32⟩
  | 105 => ⟨S330000, .f32⟩
  | 106 => ⟨S_, .i32⟩
  | 107 => ⟨S330000, .i32⟩
  | 108 => ⟨S330000, .i1⟩
  | 109 => ⟨S_, .i32⟩
  | 110 => ⟨S330000, .i32⟩
  | 111 => ⟨S330000, .i32⟩
  | 112 => ⟨S330000, .i32⟩
  | 113 => ⟨S330000x1, .i32⟩
  | 114 => ⟨S330000, .f32⟩
  | 115 => ⟨S330000, .f32⟩
  | 116 => ⟨S64x64, .f32⟩
  | 117 => ⟨S10000x64, .f32⟩
  | 118 => ⟨S_, .i32⟩
  | 119 => ⟨S330000, .i32⟩
  | 120 => ⟨S330000, .i1⟩
  | 121 => ⟨S_, .i32⟩
  | 122 => ⟨S330000, .i32⟩
  | 123 => ⟨S330000, .i32⟩
  | 124 => ⟨S330000, .i32⟩
  | 125 => ⟨S330000x1, .i32⟩
  | 126 => ⟨S330000x64, .f32⟩
  | 127 => ⟨S330000x1, .f32⟩
  | _ => ⟨S10000x32, .f32⟩

abbrev hbmTy0_1 (i : Nat) : BufTy := match i % 128 with
  | 0 => ⟨S330000x64, .f32⟩
  | 1 => ⟨S330000x64, .f32⟩
  | 2 => ⟨S_, .f32⟩
  | 3 => ⟨S10000x64, .f32⟩
  | 4 => ⟨S330000x1, .i32⟩
  | 5 => ⟨S10000x64, .f32⟩
  | 6 => ⟨S1x64, .f32⟩
  | 7 => ⟨S10000x64, .f32⟩
  | 8 => ⟨S10000x64, .f32⟩
  | 9 => ⟨S_, .f32⟩
  | 10 => ⟨S10000x64, .f32⟩
  | 11 => ⟨S10000x64, .f32⟩
  | 12 => ⟨S_, .f32⟩
  | 13 => ⟨S_, .f32⟩
  | 14 => ⟨S_, .f32⟩
  | 15 => ⟨S10000x64, .f32⟩
  | 16 => ⟨S10000x64, .f32⟩
  | 17 => ⟨S_, .f32⟩
  | 18 => ⟨S10000x64, .f32⟩
  | 19 => ⟨S10000x64, .f32⟩
  | 20 => ⟨S1x640000, .f32⟩
  | 21 => ⟨S1x169, .f32⟩
  | 22 => ⟨S169x64, .f32⟩
  | 23 => ⟨S1x64, .f32⟩
  | 24 => ⟨S1x64, .f32⟩
  | 25 => ⟨S1x64, .f32⟩
  | 26 => ⟨S_, .f32⟩
  | 27 => ⟨S1x64, .f32⟩
  | 28 => ⟨S1x64, .f32⟩
  | 29 => ⟨S64x64, .f32⟩
  | 30 => ⟨S1x64, .f32⟩
  | 31 => ⟨S1x64, .f32⟩
  | 32 => ⟨S1x64, .f32⟩
  | 33 => ⟨S1x128, .f32⟩
  | 34 => ⟨S128x64, .f32⟩
  | 35 => ⟨S64x128, .f32⟩
  | 36 => ⟨S1x128, .f32⟩
  | 37 => ⟨S1x128, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S128x10000, .f32⟩
  | 44 => ⟨S1x10000, .f32⟩
  | 45 => ⟨S1x10000, .f32⟩
  | 46 => ⟨S1x10000, .f32⟩
  | 47 => ⟨S10000, .f32⟩
  | _ => ⟨S10000x32, .f32⟩

abbrev hbmTy (i : Nat) : BufTy := match i / 128 with
  | 0 => hbmTy0_0 i
  | 1 => hbmTy0_1 i
  | _ => ⟨S10000x32, .f32⟩

abbrev bufTy : (tb : Table) → Fin (tcTables nBuf tb) → BufTy
  | .hbm, ⟨i, _⟩ => hbmTy i
  | .local _ .vmem, ⟨0, _⟩ => ⟨S1x32000, .f32⟩
  | .local _ .vmem, ⟨1, _⟩ => ⟨S1x32000, .f32⟩
  | .local _ .vmem, ⟨2, _⟩ => ⟨S128x32000, .f32⟩
  | .local _ .vmem, ⟨3, _⟩ => ⟨S128x32000, .f32⟩
  | .local _ .vmem, ⟨4, _⟩ => ⟨S1x128, .f32⟩
  | .local _ .vmem, ⟨5, _⟩ => ⟨S1x128, .f32⟩
  | _, _ => ⟨S10000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call1_cst : Ref sig .tc := ⟨.hbm, 77, rfl⟩
abbrev main_call1_v0 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_12 : Ref sig .tc := ⟨.hbm, 93, rfl⟩
abbrev main_call2_v0 : Ref sig .tc := ⟨.hbm, 94, rfl⟩
abbrev main_call2_v1 : Ref sig .tc := ⟨.hbm, 95, rfl⟩
abbrev main_v59 : Ref sig .tc := ⟨.hbm, 96, rfl⟩
abbrev main_c_13 : Ref sig .tc := ⟨.hbm, 97, rfl⟩
abbrev main_v60 : Ref sig .tc := ⟨.hbm, 98, rfl⟩
abbrev main_v61 : Ref sig .tc := ⟨.hbm, 99, rfl⟩
abbrev main_c_14 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_15 : Ref sig .tc := ⟨.hbm, 106, rfl⟩
abbrev main_v67 : Ref sig .tc := ⟨.hbm, 107, rfl⟩
abbrev main_v68 : Ref sig .tc := ⟨.hbm, 108, rfl⟩
abbrev main_c_16 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c_17 : Ref sig .tc := ⟨.hbm, 118, rfl⟩
abbrev main_v77 : Ref sig .tc := ⟨.hbm, 119, rfl⟩
abbrev main_v78 : Ref sig .tc := ⟨.hbm, 120, rfl⟩
abbrev main_c_18 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_19 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_call3_cst : Ref sig .tc := ⟨.hbm, 137, rfl⟩
abbrev main_call3_v0 : Ref sig .tc := ⟨.hbm, 138, rfl⟩
abbrev main_v93 : Ref sig .tc := ⟨.hbm, 139, rfl⟩
abbrev main_cst_20 : Ref sig .tc := ⟨.hbm, 140, rfl⟩
abbrev main_cst_21 : Ref sig .tc := ⟨.hbm, 141, rfl⟩
abbrev main_call4_v0 : Ref sig .tc := ⟨.hbm, 142, rfl⟩
abbrev main_call4_v1 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_call5_cst : Ref sig .tc := ⟨.hbm, 154, rfl⟩
abbrev main_call5_v0 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_call6_cst : Ref sig .tc := ⟨.hbm, 168, rfl⟩
abbrev main_call6_v0 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v14 : BitVec 1 := Scalar.cmpi .eq arg0 c19_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  transposes_S64x32_S32x64_1_0 : S64x32.Transposes [1, 0] S32x64
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S64x64_S64x64_1_0 : S64x64.Transposes [1, 0] S64x64
  shapeCasts_S10000x64_S1x640000 : S10000x64.ShapeCasts S1x640000
  concatenates_S1x168_S1x1_S1x169_d1 : Shape.Concatenates [S1x168, S1x1] S1x169 1
  transposes_S64x169_S169x64_1_0 : S64x169.Transposes [1, 0] S169x64
  bcast_S_S1x64 : S_.BroadcastsInDim S1x64 (![] : Fin 0 → Fin S1x64.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x32000_S1x32000_0_0 : ∀ a, (![0, 0] : Fin 2 → Nat) a + S1x32000.size a ≤ S1x32000.size a
  h_S1x32000 : 0 < S1x32000.numel
  shapeCasts_S1x32000_S1x32000 : S1x32000.ShapeCasts S1x32000
  bitsLt_bf16_f32 : FTy.bits .bf16 < FTy.bits .f32
  inb_S128x32000_S128x32000_0_0 : ∀ a, (![0, 0] : Fin 2 → Nat) a + S128x32000.size a ≤ S128x32000.size a
  h_S128x32000 : 0 < S128x32000.numel
  slices_S128x640064_S128x64_0_640000 : S128x640064.Slices ![0, 640000] S128x64
  transposes_S128x64_S64x128_1_0 : S128x64.Transposes [1, 0] S64x128
  bcast_S128_S1x128_1 : S128.BroadcastsInDim S1x128 (![1] : Fin 1 → Fin S1x128.rank)
  bcast_S_S1x128 : S_.BroadcastsInDim S1x128 (![] : Fin 0 → Fin S1x128.rank)
  transposes_S10000x128_S128x10000_1_0 : S10000x128.Transposes [1, 0] S128x10000
  bcast_S10000_S1x10000_1 : S10000.BroadcastsInDim S1x10000 (![1] : Fin 1 → Fin S1x10000.rank)
  shapeCasts_S1x10000_S10000 : S1x10000.ShapeCasts S10000
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x32_S32x64_S10000x64_1_0_0_1_n_n_wf : DotDims.WF S10000x32 S32x64 S10000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x64_S10000x64_1_0_0_1_n_n_wf : DotDims.WF S10000x64 S64x64 S10000x64 [1] [0] [0] [1] [] []
  dot_S1x169_S169x64_S1x64_1_0_0_1_n_n_wf : DotDims.WF S1x169 S169x64 S1x64 [1] [0] [0] [1] [] []
  dot_S1x64_S64x64_S1x64_1_0_0_1_n_n_wf : DotDims.WF S1x64 S64x64 S1x64 [1] [0] [0] [1] [] []
  dot_S1x32000_S128x32000_S1x128_1_1_0_0_n_n_wf : DotDims.WF S1x32000 S128x32000 S1x128 [1] [1] [0] [0] [] []
  dot_S1x64_S64x128_S1x128_1_0_0_1_n_n_wf : DotDims.WF S1x64 S64x128 S1x128 [1] [0] [0] [1] [] []
  dot_S1x128_S128x10000_S1x10000_1_0_0_1_n_n_wf : DotDims.WF S1x128 S128x10000 S1x10000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32000.size a ≤ S1x640000.size a
  hwx0_0 : ∀ i : grid0.Coords, EltTy.bits .f32 = 32 ∨ (Rect.block (s := S1x640000) S1x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S128x32000.size a < S128x640064.size a
  hwx0_1 : ∀ i : grid0.Coords, EltTy.bits .f32 = 32 ∨ (Rect.unit (s := S128x640064) (fun a => cc0_transform_1 i a * S128x32000.size a) (fun a => (Pipeline.Clip.of (cc0_transform_1 i a) (S128x32000.size a) (S128x640064.size a)).extent (S128x32000.size a)) fun a => Pipeline.Clip.inb (Pipeline.Clip.ok_of (hstart0_1 i a))).WholeWords (EltTy.packing .f32)
  hwxs0_1 : ∀ i : grid0.Coords, EltTy.bits .f32 = 32 ∨ (Rect.unit (s := S128x32000) (fun _ => 0) (fun a => (Pipeline.Clip.of (cc0_transform_1 i a) (S128x32000.size a) (S128x640064.size a)).extent (S128x32000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S1x169_S169x64_S1x64_1_0_0_1_n_n : DotDims S1x169 S169x64 S1x64 where
  lhsContracting := [1]
  rhsContracting := [0]
  lhsNonContracting := [0]
  rhsNonContracting := [1]
  lhsBatch := []
  rhsBatch := []
  wf := dot_S1x169_S169x64_S1x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x32000_S128x32000_S1x128_1_1_0_0_n_n : DotDims S1x32000 S128x32000 S1x128 where
  lhsContracting := [1]
  rhsContracting := [1]
  lhsNonContracting := [0]
  rhsNonContracting := [0]
  lhsBatch := []
  rhsBatch := []
  wf := dot_S1x32000_S128x32000_S1x128_1_1_0_0_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S1x128_S128x10000_S1x10000_1_0_0_1_n_n : DotDims S1x128 S128x10000 S1x10000 where
  lhsContracting := [1]
  rhsContracting := [0]
  lhsNonContracting := [0]
  rhsNonContracting := [1]
  lhsBatch := []
  rhsBatch := []
  wf := dot_S1x128_S128x10000_S1x10000_1_0_0_1_n_n_wf

abbrev win0_0 : Pipeline.Window sig grid0 :=
  Pipeline.Window.ofSpec (Memref.whole main_v95) S1x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg12) S128x32000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v106) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S10000x32 : Shape := ⟨2, ![10000, 32]⟩
abbrev S2x320000 : Shape := ⟨2, ![2, 320000]⟩
abbrev S1x168 : Shape := ⟨2, ![1, 168]⟩
abbrev S1x1 : Shape := ⟨2, ![1, 1]⟩
abbrev S64x32 : Shape := ⟨2, ![64, 32]⟩
abbrev S64 : Shape := ⟨1, ![64]⟩
abbrev S64x64 : Shape := ⟨2, ![64, 64]⟩
abbrev S64x169 : Shape := ⟨2, ![64, 169]⟩
abbrev S128x640064 : Shape := ⟨2, ![128, 640064]⟩
abbrev S128 : Shape := ⟨1, ![128]⟩
abbrev S10000x128 : Shape := ⟨2, ![10000, 128]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S32x64 : Shape := ⟨2, ![32, 64]⟩
abbrev S10000x64 : Shape := ⟨2, ![10000, 64]⟩
abbrev S330000x64 : Shape := ⟨2, ![330000, 64]⟩
abbrev S1x64 : Shape := ⟨2, ![1, 64]⟩
abbrev S1x640000 : Shape := ⟨2, ![1, 640000]⟩
abbrev S1x169 : Shape := ⟨2, ![1, 169]⟩
abbrev S169x64 : Shape := ⟨2, ![169, 64]⟩
abbrev S1x640064 : Shape := ⟨2, ![1, 640064]⟩
abbrev S640064x128 : Shape := ⟨2, ![640064, 128]⟩
abbrev S1x128 : Shape := ⟨2, ![1, 128]⟩
abbrev S128x10000 : Shape := ⟨2, ![128, 10000]⟩
abbrev S1x10000 : Shape := ⟨2, ![1, 10000]⟩

abbrev nBuf : Space → Nat
  | .hbm => 174
  | .vmem => 0
  | .smem => 0
  | _ => 0

abbrev hbmTy0_0 (i : Nat) : BufTy := match i % 128 with
  | 0 => ⟨S10000x32, .f32⟩
  | 1 => ⟨S2x320000, .i32⟩
  | 2 => ⟨S1x168, .f32⟩
  | 3 => ⟨S1x1, .f32⟩
  | 4 => ⟨S64x32, .f32⟩
  | 5 => ⟨S64, .f32⟩
  | 6 => ⟨S64x64, .f32⟩
  | 7 => ⟨S64, .f32⟩
  | 8 => ⟨S64x169, .f32⟩
  | 9 => ⟨S64, .f32⟩
  | 10 => ⟨S64x64, .f32⟩
  | 11 => ⟨S64, .f32⟩
  | 12 => ⟨S128x640064, .f32⟩
  | 13 => ⟨S128, .f32⟩
  | 14 => ⟨S10000x128, .f32⟩
  | 15 => ⟨S10000, .f32⟩
  | 16 => ⟨S1x320000, .i32⟩
  | 17 => ⟨S320000, .i32⟩
  | 18 => ⟨S1x320000, .i32⟩
  | 19 => ⟨S320000, .i32⟩
  | 20 => ⟨S10000, .i32⟩
  | 21 => ⟨S330000, .i32⟩
  | 22 => ⟨S330000, .i32⟩
  | 23 => ⟨S_, .f32⟩
  | 24 => ⟨S330000, .f32⟩
  | 25 => ⟨S_, .f32⟩
  | 26 => ⟨S10000, .f32⟩
  | 27 => ⟨S330000x1, .i32⟩
  | 28 => ⟨S10000, .f32⟩
  | 29 => ⟨S_, .f32⟩
  | 30 => ⟨S10000, .f32⟩
  | 31 => ⟨S10000, .i1⟩
  | 32 => ⟨S10000, .f32⟩
  | 33 => ⟨S_, .f32⟩
  | 34 => ⟨S_, .f32⟩
  | 35 => ⟨S10000, .f32⟩
  | 36 => ⟨S10000, .f32⟩
  | 37 => ⟨S_, .i32⟩
  | 38 => ⟨S330000, .i32⟩
  | 39 => ⟨S330000, .i1⟩
  | 40 => ⟨S_, .i32⟩
  | 41 => ⟨S330000, .i32⟩
  | 42 => ⟨S330000, .i32⟩
  | 43 => ⟨S330000, .i32⟩
  | 44 => ⟨S330000x1, .i32⟩
  | 45 => ⟨S330000, .f32⟩
  | 46 => ⟨S_, .i32⟩
  | 47 => ⟨S330000, .i32⟩
  | 48 => ⟨S330000, .i1⟩
  | 49 => ⟨S_, .i32⟩
  | 50 => ⟨S330000, .i32⟩
  | 51 => ⟨S330000, .i32⟩
  | 52 => ⟨S330000, .i32⟩
  | 53 => ⟨S330000x1, .i32⟩
  | 54 => ⟨S330000, .f32⟩
  | 55 => ⟨S330000, .f32⟩
  | 56 => ⟨S32x64, .f32⟩
  | 57 => ⟨S10000x64, .f32⟩
  | 58 => ⟨S_, .i32⟩
  | 59 => ⟨S330000, .i32⟩
  | 60 => ⟨S330000, .i1⟩
  | 61 => ⟨S_, .i32⟩
  | 62 => ⟨S330000, .i32⟩
  | 63 => ⟨S330000, .i32⟩
  | 64 => ⟨S330000, .i32⟩
  | 65 => ⟨S330000x1, .i32⟩
  | 66 => ⟨S330000x64, .f32⟩
  | 67 => ⟨S330000x1, .f32⟩
  | 68 => ⟨S330000x64, .f32⟩
  | 69 => ⟨S330000x64, .f32⟩
  | 70 => ⟨S_, .f32⟩
  | 71 => ⟨S10000x64, .f32⟩
  | 72 => ⟨S330000x1, .i32⟩
  | 73 => ⟨S10000x64, .f32⟩
  | 74 => ⟨S1x64, .f32⟩
  | 75 => ⟨S10000x64, .f32⟩
  | 76 => ⟨S10000x64, .f32⟩
  | 77 => ⟨S_, .f32⟩
  | 78 => ⟨S10000x64, .f32⟩
  | 79 => ⟨S10000x64, .f32⟩
  | 80 => ⟨S10000, .i32⟩
  | 81 => ⟨S330000, .i32⟩
  | 82 => ⟨S330000, .i32⟩
  | 83 => ⟨S_, .f32⟩
  | 84 => ⟨S330000, .f32⟩
  | 85 => ⟨S_, .f32⟩
  | 86 => ⟨S10000, .f32⟩
  | 87 => ⟨S330000x1, .i32⟩
  | 88 => ⟨S10000, .f32⟩
  | 89 => ⟨S_, .f32⟩
  | 90 => ⟨S10000, .f32⟩
  | 91 => ⟨S10000, .i1⟩
  | 92 => ⟨S10000, .f32⟩
  | 93 => ⟨S_, .f32⟩
  | 94 => ⟨S_, .f32⟩
  | 95 => ⟨S10000, .f32⟩
  | 96 => ⟨S10000, .f32⟩
  | 97 => ⟨S_, .i32⟩
  | 98 => ⟨S330000, .i32⟩
  | 99 => ⟨S330000, .i1⟩
  | 100 => ⟨S_, .i32⟩
  | 101 => ⟨S330000, .i32⟩
  | 102 => ⟨S330000, .i32⟩
  | 103 => ⟨S330000, .i32⟩
  | 104 => ⟨S330000x1, .i32⟩
  | 105 => ⟨S330000, .f32⟩
  | 106 => ⟨S_, .i32⟩
  | 107 => ⟨S330000, .i32⟩
  | 108 => ⟨S330000, .i1⟩
  | 109 => ⟨S_, .i32⟩
  | 110 => ⟨S330000, .i32⟩
  | 111 => ⟨S330000, .i32⟩
  | 112 => ⟨S330000, .i32⟩
  | 113 => ⟨S330000x1, .i32⟩
  | 114 => ⟨S330000, .f32⟩
  | 115 => ⟨S330000, .f32⟩
  | 116 => ⟨S64x64, .f32⟩
  | 117 => ⟨S10000x64, .f32⟩
  | 118 => ⟨S_, .i32⟩
  | 119 => ⟨S330000, .i32⟩
  | 120 => ⟨S330000, .i1⟩
  | 121 => ⟨S_, .i32⟩
  | 122 => ⟨S330000, .i32⟩
  | 123 => ⟨S330000, .i32⟩
  | 124 => ⟨S330000, .i32⟩
  | 125 => ⟨S330000x1, .i32⟩
  | 126 => ⟨S330000x64, .f32⟩
  | 127 => ⟨S330000x1, .f32⟩
  | _ => ⟨S10000x32, .f32⟩

abbrev hbmTy0_1 (i : Nat) : BufTy := match i % 128 with
  | 0 => ⟨S330000x64, .f32⟩
  | 1 => ⟨S330000x64, .f32⟩
  | 2 => ⟨S_, .f32⟩
  | 3 => ⟨S10000x64, .f32⟩
  | 4 => ⟨S330000x1, .i32⟩
  | 5 => ⟨S10000x64, .f32⟩
  | 6 => ⟨S1x64, .f32⟩
  | 7 => ⟨S10000x64, .f32⟩
  | 8 => ⟨S10000x64, .f32⟩
  | 9 => ⟨S_, .f32⟩
  | 10 => ⟨S10000x64, .f32⟩
  | 11 => ⟨S10000x64, .f32⟩
  | 12 => ⟨S_, .f32⟩
  | 13 => ⟨S_, .f32⟩
  | 14 => ⟨S_, .f32⟩
  | 15 => ⟨S10000x64, .f32⟩
  | 16 => ⟨S10000x64, .f32⟩
  | 17 => ⟨S_, .f32⟩
  | 18 => ⟨S10000x64, .f32⟩
  | 19 => ⟨S10000x64, .f32⟩
  | 20 => ⟨S1x640000, .f32⟩
  | 21 => ⟨S1x169, .f32⟩
  | 22 => ⟨S169x64, .f32⟩
  | 23 => ⟨S1x64, .f32⟩
  | 24 => ⟨S1x64, .f32⟩
  | 25 => ⟨S1x64, .f32⟩
  | 26 => ⟨S_, .f32⟩
  | 27 => ⟨S1x64, .f32⟩
  | 28 => ⟨S1x64, .f32⟩
  | 29 => ⟨S64x64, .f32⟩
  | 30 => ⟨S1x64, .f32⟩
  | 31 => ⟨S1x64, .f32⟩
  | 32 => ⟨S1x64, .f32⟩
  | 33 => ⟨S1x640064, .f32⟩
  | 34 => ⟨S640064x128, .f32⟩
  | 35 => ⟨S1x128, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S128x10000, .f32⟩
  | 42 => ⟨S1x10000, .f32⟩
  | 43 => ⟨S1x10000, .f32⟩
  | 44 => ⟨S1x10000, .f32⟩
  | 45 => ⟨S10000, .f32⟩
  | _ => ⟨S10000x32, .f32⟩

abbrev hbmTy (i : Nat) : BufTy := match i / 128 with
  | 0 => hbmTy0_0 i
  | 1 => hbmTy0_1 i
  | _ => ⟨S10000x32, .f32⟩

abbrev bufTy : (tb : Table) → Fin (tcTables nBuf tb) → BufTy
  | .hbm, ⟨i, _⟩ => hbmTy i
  | _, _ => ⟨S10000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call1_cst : Ref sig .tc := ⟨.hbm, 77, rfl⟩
abbrev main_call1_v0 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_12 : Ref sig .tc := ⟨.hbm, 93, rfl⟩
abbrev main_call2_v0 : Ref sig .tc := ⟨.hbm, 94, rfl⟩
abbrev main_call2_v1 : Ref sig .tc := ⟨.hbm, 95, rfl⟩
abbrev main_v59 : Ref sig .tc := ⟨.hbm, 96, rfl⟩
abbrev main_c_13 : Ref sig .tc := ⟨.hbm, 97, rfl⟩
abbrev main_v60 : Ref sig .tc := ⟨.hbm, 98, rfl⟩
abbrev main_v61 : Ref sig .tc := ⟨.hbm, 99, rfl⟩
abbrev main_c_14 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_15 : Ref sig .tc := ⟨.hbm, 106, rfl⟩
abbrev main_v67 : Ref sig .tc := ⟨.hbm, 107, rfl⟩
abbrev main_v68 : Ref sig .tc := ⟨.hbm, 108, rfl⟩
abbrev main_c_16 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c_17 : Ref sig .tc := ⟨.hbm, 118, rfl⟩
abbrev main_v77 : Ref sig .tc := ⟨.hbm, 119, rfl⟩
abbrev main_v78 : Ref sig .tc := ⟨.hbm, 120, rfl⟩
abbrev main_c_18 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_19 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_call3_cst : Ref sig .tc := ⟨.hbm, 137, rfl⟩
abbrev main_call3_v0 : Ref sig .tc := ⟨.hbm, 138, rfl⟩
abbrev main_v93 : Ref sig .tc := ⟨.hbm, 139, rfl⟩
abbrev main_cst_20 : Ref sig .tc := ⟨.hbm, 140, rfl⟩
abbrev main_cst_21 : Ref sig .tc := ⟨.hbm, 141, rfl⟩
abbrev main_call4_v0 : Ref sig .tc := ⟨.hbm, 142, rfl⟩
abbrev main_call4_v1 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_call5_cst : Ref sig .tc := ⟨.hbm, 154, rfl⟩
abbrev main_call5_v0 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_call6_cst : Ref sig .tc := ⟨.hbm, 166, rfl⟩
abbrev main_call6_v0 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  transposes_S64x32_S32x64_1_0 : S64x32.Transposes [1, 0] S32x64
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S64x64_S64x64_1_0 : S64x64.Transposes [1, 0] S64x64
  shapeCasts_S10000x64_S1x640000 : S10000x64.ShapeCasts S1x640000
  concatenates_S1x168_S1x1_S1x169_d1 : Shape.Concatenates [S1x168, S1x1] S1x169 1
  transposes_S64x169_S169x64_1_0 : S64x169.Transposes [1, 0] S169x64
  bcast_S_S1x64 : S_.BroadcastsInDim S1x64 (![] : Fin 0 → Fin S1x64.rank)
  concatenates_S1x640000_S1x64_S1x640064_d1 : Shape.Concatenates [S1x640000, S1x64] S1x640064 1
  transposes_S128x640064_S640064x128_1_0 : S128x640064.Transposes [1, 0] S640064x128
  bcast_S128_S1x128_1 : S128.BroadcastsInDim S1x128 (![1] : Fin 1 → Fin S1x128.rank)
  bcast_S_S1x128 : S_.BroadcastsInDim S1x128 (![] : Fin 0 → Fin S1x128.rank)
  transposes_S10000x128_S128x10000_1_0 : S10000x128.Transposes [1, 0] S128x10000
  bcast_S10000_S1x10000_1 : S10000.BroadcastsInDim S1x10000 (![1] : Fin 1 → Fin S1x10000.rank)
  shapeCasts_S1x10000_S10000 : S1x10000.ShapeCasts S10000
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x32_S32x64_S10000x64_1_0_0_1_n_n_wf : DotDims.WF S10000x32 S32x64 S10000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x64_S10000x64_1_0_0_1_n_n_wf : DotDims.WF S10000x64 S64x64 S10000x64 [1] [0] [0] [1] [] []
  dot_S1x169_S169x64_S1x64_1_0_0_1_n_n_wf : DotDims.WF S1x169 S169x64 S1x64 [1] [0] [0] [1] [] []
  dot_S1x64_S64x64_S1x64_1_0_0_1_n_n_wf : DotDims.WF S1x64 S64x64 S1x64 [1] [0] [0] [1] [] []
  dot_S1x640064_S640064x128_S1x128_1_0_0_1_n_n_wf : DotDims.WF S1x640064 S640064x128 S1x128 [1] [0] [0] [1] [] []
  dot_S1x128_S128x10000_S1x10000_1_0_0_1_n_n_wf : DotDims.WF S1x128 S128x10000 S1x10000 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S1x169_S169x64_S1x64_1_0_0_1_n_n : DotDims S1x169 S169x64 S1x64 where
  lhsContracting := [1]
  rhsContracting := [0]
  lhsNonContracting := [0]
  rhsNonContracting := [1]
  lhsBatch := []
  rhsBatch := []
  wf := dot_S1x169_S169x64_S1x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x640064_S640064x128_S1x128_1_0_0_1_n_n : DotDims S1x640064 S640064x128 S1x128 where
  lhsContracting := [1]
  rhsContracting := [0]
  lhsNonContracting := [0]
  rhsNonContracting := [1]
  lhsBatch := []
  rhsBatch := []
  wf := dot_S1x640064_S640064x128_S1x128_1_0_0_1_n_n_wf
def dot_S1x128_S128x10000_S1x10000_1_0_0_1_n_n : DotDims S1x128 S128x10000 S1x10000 where
  lhsContracting := [1]
  rhsContracting := [0]
  lhsNonContracting := [0]
  rhsNonContracting := [1]
  lhsBatch := []
  rhsBatch := []
  wf := dot_S1x128_S128x10000_S1x10000_1_0_0_1_n_n_wf

class Facts : Prop extends Facts₀ where

variable [Facts]
-- ==== Proof.K.Facts.lean ====
/-
  The reduction kernel's grid has twenty points. The body does three things: at the first point it clears the
  accumulator; at every point it adds the product of the point's slice of the feature row with the matching
  columns of the weight matrix to the accumulator; at the last point it copies the accumulator to the result.
  This module decides, over the twenty points, which points are first and last, where the result window is idle and
  where it is written back, and that no block of the weight window reaches past the last column the grid visits
  (the matrix has 64 further columns, which the kernel never stages). It also names the accumulator buffer and
  states the region's invariant with that buffer made explicit.
-/
import proofs.«140559_j39006892982336_1_alg».proof.Proof.Gen.Kernel.Frame
import proofs.«140559_j39006892982336_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## First and last point -/

/-- The body's first branch condition at coordinates `i`: the point's number is zero. -/
abbrev isFirst (i : grid0.Coords) : Prop :=
  (Scalar.cmpi .ne (Scalar.extui (Scalar.cmpi .eq (BitVec.ofNat 32 (i 0).val) 0#32)) 0#32) = 1#1
/-- It holds exactly at point 0. -/
theorem isFirst_iff : ∀ t : Fin cfg0.N, isFirst (grid0.coords t) ↔ t.val = 0 :=
  (by decide +kernel : ∀ t : Fin grid0.N, isFirst (grid0.coords t) ↔ t.val = 0)

/-- The body's second branch condition: the point's number is nineteen. -/
abbrev isLast (i : grid0.Coords) : Prop := k0_cond2 i = 1#1
/-- It holds exactly at point 19. -/
theorem isLast_iff : ∀ t : Fin cfg0.N, isLast (grid0.coords t) ↔ t.val = 19 :=
  (by decide +kernel : ∀ t : Fin grid0.N, isLast (grid0.coords t) ↔ t.val = 19)

/-! ## Where each window is idle, written back, cut -/

theorem live_features : ∀ t : Fin cfg0.N, cfg0.idle 0 (grid0.coords t) = false := by decide +kernel
theorem live_weights : ∀ t : Fin cfg0.N, cfg0.idle 1 (grid0.coords t) = false := by decide +kernel
/-- Away from the last point nothing is stored into the result's buffer, -/
theorem idle_result : ∀ t : Fin cfg0.N, ¬isLast (grid0.coords t) → cfg0.idle 2 (grid0.coords t) = true := by decide +kernel
/-- and it is not written back there; -/
theorem noFlush_result : ∀ t : Fin cfg0.N, ¬isLast (grid0.coords t) → (cfg0.win 2).flush t = false := by decide +kernel
/-- at the last point it is stored into. -/
theorem live_result : ∀ t : Fin cfg0.N, isLast (grid0.coords t) → cfg0.idle 2 (grid0.coords t) = false := by decide +kernel

/-- Every block of the weight window the grid visits lies inside the matrix: columns 32000 t to 32000 t + 31999,
    all below 640000. -/
theorem weights_uncut : ∀ t : Fin cfg0.N, ∀ a, (cfg0.win 1).clip (grid0.coords t) a = none :=
  (by decide +kernel : ∀ t : Fin grid0.N, ∀ a, win0_1.clip (grid0.coords t) a = none)

/-! ## The buffers the body is called with -/

/-- One staging buffer of the result window, through which its contents are stated. -/
abbrev resV : View sig .tc .vmem S1x128 .f32 := (Memref.whole cc0_stg2_0 : Memref sig .tc .vmem S1x128 .f32).view
abbrev mFeat (t : Fin cfg0.N) : Memref sig .tc .vmem S1x32000 .f32 := win0_0.stage (cfg0.slots t 0)
abbrev hFeat (t : Fin cfg0.N) : (mFeat t).IsWhole := hstage0_0 ((cfg0.slots t 0).cast nbuf0_0)
abbrev mWts (t : Fin cfg0.N) : Memref sig .tc .vmem S128x32000 .f32 := win0_1.stage (cfg0.slots t 1)
abbrev hWts (t : Fin cfg0.N) : (mWts t).IsWhole := hstage0_1 ((cfg0.slots t 1).cast nbuf0_1)
abbrev mRes (t : Fin cfg0.N) : Memref sig .tc .vmem S1x128 .f32 := win0_2.stage (cfg0.slots t 2)
abbrev hRes (t : Fin cfg0.N) : (mRes t).IsWhole := hstage0_2 ((cfg0.slots t 2).cast nbuf0_2)
/-- The accumulator: a whole buffer of the kernel's own, kept from point to point. -/
abbrev mAcc : Memref sig .tc .vmem S1x128 .f32 := Memref.whole cc0_scratch0
abbrev accV : View sig .tc .vmem S1x128 .f32 := mAcc.view

/-- The region's invariant with the accumulator as a buffer owned at some contents. -/
theorem PhiA_eq (c : Dev nD) :
    (Pipeline.ΦA spec0 c : sProp 𝕄)
      = iprop(iprop((∃ d, owns (c : Thread nD τ) mAcc fullShare d)) ∗ (∃ r, prngReg c r)) := by
  unfold Pipeline.ΦA; rw [scopedRest0_eq]; simp only [mAcc, owns_whole]; try rfl

end Cert.Kernel.Acc

end
-- ==== Proof.K.RunFirst.lean ====
/-
  The body at the first point. The accumulator holds anything; the body clears it, reads the slice of the feature row
  and the block of the weight matrix, adds their product to the cleared accumulator and stores the sum back. Nothing
  is stored into the result's buffer, which is handed back as it was found. What the accumulator ends with is
  recorded as the list of pieces the body's stores wrote, newest first.
-/
import proofs.«140559_j39006892982336_1_alg».proof.Proof.K.Facts

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The pieces the first point's stores leave in the accumulator, with the proof that the body runs: the two input
    buffers at their contents `x0`, `x1` and the result's buffer at `xr` come back unchanged. -/
noncomputable def runFirst (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : isFirst i) (hl : ¬isLast i)
    (x0 : Vec F S1x32000 .f32) (x1 : Vec F S128x32000 .f32) :
    { LS : List (View.Piece (Elt F) S1x128 .f32) //
      ∀ (xr : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xr
            ∗ (∃ d, owns (c : Thread nD τ) arg4 fullShare d)
            ∗ (iprop(owns (c : Thread nD τ) arg1 fullShare x0 ∗ owns (c : Thread nD τ) arg2 fullShare x1 ∗ owns (c : Thread nD τ) arg3 fullShare xr
                ∗ (∃ f, arg4.view.loc (c : Thread nD τ) ↦[arg4.view.set]{fullShare} arg4.view.writes (Elt F) f LS)) -∗ K ⟨⟩))
          ⊢ wp frame (wpE (defs₀ (F := F)) Variants.none c none) E (cc0__of1_reduce_kernel i arg1 harg1 arg2 harg2 arg3 harg3 arg4 harg4) K } := by
  refine ⟨?_, fun xr E K => ?run⟩
  case run =>
    simp only [cc0__of1_reduce_kernel_eq_skeleton]; unfold cc0__of1_reduce_kernel_skel
    unfold owns
    iintro ⟨⟨%f0, %hf0, H0⟩, ⟨%f1, %hf1, H1⟩, ⟨%f2, %hf2, H2⟩, ⟨%ds, %fs, -, HS⟩, Hk⟩
    obtain rfl := harg1.eq_unread hf0; obtain rfl := harg2.eq_unread hf1; obtain rfl := harg3.eq_unread hf2
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

end Cert.Kernel.Acc

end
-- ==== Proof.K.RunMid.lean ====
/-
  The body at a point that is neither first nor last. The accumulator holds what the point before left, `xs`; the
  body adds the product of the point's slice of the feature row with its block of the weight matrix and stores the
  sum back. The result's buffer is handed back as found.
-/
import proofs.«140559_j39006892982336_1_alg».proof.Proof.K.RunFirst

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The pieces a middle point's store leaves in the accumulator, with the proof that the body runs. -/
noncomputable def runMid (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : ¬isLast i)
    (x0 : Vec F S1x32000 .f32) (x1 : Vec F S128x32000 .f32) (xs : Vec F S1x128 .f32) :
    { LS : List (View.Piece (Elt F) S1x128 .f32) //
      ∀ (xr : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xr
            ∗ owns (c : Thread nD τ) arg4 fullShare xs
            ∗ (iprop(owns (c : Thread nD τ) arg1 fullShare x0 ∗ owns (c : Thread nD τ) arg2 fullShare x1 ∗ owns (c : Thread nD τ) arg3 fullShare xr
                ∗ (∃ f, arg4.view.loc (c : Thread nD τ) ↦[arg4.view.set]{fullShare} arg4.view.writes (Elt F) f LS)) -∗ K ⟨⟩))
          ⊢ wp frame (wpE (defs₀ (F := F)) Variants.none c none) E (cc0__of1_reduce_kernel i arg1 harg1 arg2 harg2 arg3 harg3 arg4 harg4) K } := by
  refine ⟨?_, fun xr E K => ?run⟩
  case run =>
    simp only [cc0__of1_reduce_kernel_eq_skeleton]; unfold cc0__of1_reduce_kernel_skel
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2
    obtain rfl := harg4.eq_unread hfs
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

end Cert.Kernel.Acc

end
-- ==== Proof.K.RunLast.lean ====
/-
  The body at the last point. The accumulator holds what the point before left, `xs`; the body adds the last
  product, stores the sum back, reads it again and stores it into the result's buffer, which held anything.
-/
import proofs.«140559_j39006892982336_1_alg».proof.Proof.K.RunMid

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The pieces the last point's stores leave in the result's buffer (`LR`) and in the accumulator (`LS`), with the
    proof that the body runs. -/
noncomputable def runLast (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : isLast i)
    (x0 : Vec F S1x32000 .f32) (x1 : Vec F S128x32000 .f32) (xs : Vec F S1x128 .f32) :
    Σ' (LR : List (View.Piece (Elt F) S1x128 .f32)), { LS : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f LR)
                ∗ (∃ f, arg4.view.loc (c : Thread nD τ) ↦[arg4.view.set]{fullShare} arg4.view.writes (Elt F) f LS)) -∗ K ⟨⟩))
          ⊢ wp frame (wpE (defs₀ (F := F)) Variants.none c none) E (cc0__of1_reduce_kernel i arg1 harg1 arg2 harg2 arg3 harg3 arg4 harg4) K } := by
  refine ⟨?_, ?_, fun E K => ?run⟩
  case run =>
    simp only [cc0__of1_reduce_kernel_eq_skeleton]; unfold cc0__of1_reduce_kernel_skel
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1
    obtain rfl := harg4.eq_unread hfs
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

end Cert.Kernel.Acc

end
-- ==== Proof.K.Data.lean ====
/-
  What the kernel's buffers hold after each grid point, and the body's obligation to the pipeline.

  After point `t` the feature window's buffer holds the row's slice `[32000 t, 32000 t + 32000)`, the weight
  window's buffer the matrix's columns of the same range, and the accumulator
      acc 0 = (0 + slice 0 · block 0ᵀ),   acc (n + 1) = acc n + slice (n + 1) · block (n + 1)ᵀ,
  defined by recursion on the point through what each case of the body stores. The result's buffer is written
  only at the last point, with the accumulator's final contents. The region's invariant carries the accumulator
  at `acc (t - 1)` before point `t` (at anything before the first point).
-/
import proofs.«140559_j39006892982336_1_alg».proof.Proof.K.RunLast
import Idealize.ShloMosaic.Lib.Pipeline.FrameSuffix

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the body reads -/

/-- The weight window's block at point `t` in the block's full shape. (Every visited block lies inside the matrix, so
    the filler is never read: `weights_uncut`.) -/
def wblk (c : Dev nD) (t : Fin cfg0.N) : S128x32000.Idx → Elt F .f32 :=
  win0_1.fill (grid0.coords t) (fun _ => Scalar.ofBits .f32 0#32) (iblk m c 1 t)

/-! ## What each case leaves, read back from its stores -/

theorem coverFirst (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : isFirst i) (hl : ¬isLast i) (x0 : Vec F S1x32000 .f32) (x1 : Vec F S128x32000 .f32) (y : S1x128.Idx) :
    ∃ pc ∈ (runFirst c i arg1 harg1 arg2 harg2 arg3 harg3 arg4 harg4 hf hl x0 x1).1, y ∈ pc.1.set :=
  View.cover_of_tiledL (runFirst c i arg1 harg1 arg2 harg2 arg3 harg3 arg4 harg4 hf hl x0 x1).1 S1x128.size (by sl_kernel_rfl) y
/-- The accumulator after the first point. -/
def accFirst (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : isFirst i) (hl : ¬isLast i) (x0 : Vec F S1x32000 .f32) (x1 : Vec F S128x32000 .f32) : S1x128.Idx → Elt F .f32 :=
  View.canon (runFirst c i arg1 harg1 arg2 harg2 arg3 harg3 arg4 harg4 hf hl x0 x1).1

theorem coverMid (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : ¬isLast i) (x0 : Vec F S1x32000 .f32) (x1 : Vec F S128x32000 .f32) (xs : Vec F S1x128 .f32) (y : S1x128.Idx) :
    ∃ pc ∈ (runMid c i arg1 harg1 arg2 harg2 arg3 harg3 arg4 harg4 hf hl x0 x1 xs).1, y ∈ pc.1.set :=
  View.cover_of_tiledL (runMid c i arg1 harg1 arg2 harg2 arg3 harg3 arg4 harg4 hf hl x0 x1 xs).1 S1x128.size (by sl_kernel_rfl) y
/-- The accumulator after a middle point, from what the point before left in it. -/
def accMid (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : ¬isLast i) (x0 : Vec F S1x32000 .f32) (x1 : Vec F S128x32000 .f32) (xs : Vec F S1x128 .f32) : S1x128.Idx → Elt F .f32 :=
  View.canon (runMid c i arg1 harg1 arg2 harg2 arg3 harg3 arg4 harg4 hf hl x0 x1 xs).1

theorem coverLastAcc (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : isLast i) (x0 : Vec F S1x32000 .f32) (x1 : Vec F S128x32000 .f32) (xs : Vec F S1x128 .f32) (y : S1x128.Idx) :
    ∃ pc ∈ (runLast c i arg1 harg1 arg2 harg2 arg3 harg3 arg4 harg4 hf hl x0 x1 xs).2.1, y ∈ pc.1.set :=
  View.cover_of_tiledL (runLast c i arg1 harg1 arg2 harg2 arg3 harg3 arg4 harg4 hf hl x0 x1 xs).2.1 S1x128.size (by sl_kernel_rfl) y
/-- The accumulator after the last point. -/
def accLast (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : isLast i) (x0 : Vec F S1x32000 .f32) (x1 : Vec F S128x32000 .f32) (xs : Vec F S1x128 .f32) : S1x128.Idx → Elt F .f32 :=
  View.canon (runLast c i arg1 harg1 arg2 harg2 arg3 harg3 arg4 harg4 hf hl x0 x1 xs).2.1

theorem coverLastRes (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : isLast i) (x0 : Vec F S1x32000 .f32) (x1 : Vec F S128x32000 .f32) (xs : Vec F S1x128 .f32) (y : S1x128.Idx) :
    ∃ pc ∈ (runLast c i arg1 harg1 arg2 harg2 arg3 harg3 arg4 harg4 hf hl x0 x1 xs).1, y ∈ pc.1.set :=
  View.cover_of_tiledL (runLast c i arg1 harg1 arg2 harg2 arg3 harg3 arg4 harg4 hf hl x0 x1 xs).1 S1x128.size (by sl_kernel_rfl) y
/-- The result's buffer after the last point. -/
def resLast (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : isLast i) (x0 : Vec F S1x32000 .f32) (x1 : Vec F S128x32000 .f32) (xs : Vec F S1x128 .f32) : S1x128.Idx → Elt F .f32 :=
  View.canon (runLast c i arg1 harg1 arg2 harg2 arg3 harg3 arg4 harg4 hf hl x0 x1 xs).1

/-! ## The accumulation over the grid -/

/-- The accumulator after point `n`. -/
def accAt (c : Dev nD) : (n : ℕ) → n < cfg0.N → (S1x128.Idx → Elt F .f32)
  | 0, hn => accFirst c (grid0.coords ⟨0, hn⟩) (mFeat ⟨0, hn⟩) (hFeat ⟨0, hn⟩) (mWts ⟨0, hn⟩) (hWts ⟨0, hn⟩) (mRes ⟨0, hn⟩) (hRes ⟨0, hn⟩) mAcc (Memref.isWhole_whole _) ((isFirst_iff ⟨0, hn⟩).mpr rfl)
      (fun h => (fun h => by (try dsimp only at h); omega) ((isLast_iff ⟨0, hn⟩).mp h)) (iblk m c 0 ⟨0, hn⟩) (wblk m c ⟨0, hn⟩)
  | n + 1, hn =>
    if hl : n + 1 = 19 then
      accLast c (grid0.coords ⟨n + 1, hn⟩) (mFeat ⟨n + 1, hn⟩) (hFeat ⟨n + 1, hn⟩) (mWts ⟨n + 1, hn⟩) (hWts ⟨n + 1, hn⟩) (mRes ⟨n + 1, hn⟩) (hRes ⟨n + 1, hn⟩) mAcc (Memref.isWhole_whole _) (fun h => absurd ((isFirst_iff ⟨n + 1, hn⟩).mp h) (Nat.succ_ne_zero n))
        ((isLast_iff ⟨n + 1, hn⟩).mpr hl) (iblk m c 0 ⟨n + 1, hn⟩) (wblk m c ⟨n + 1, hn⟩) (accAt c n (Nat.lt_of_succ_lt hn))
    else
      accMid c (grid0.coords ⟨n + 1, hn⟩) (mFeat ⟨n + 1, hn⟩) (hFeat ⟨n + 1, hn⟩) (mWts ⟨n + 1, hn⟩) (hWts ⟨n + 1, hn⟩) (mRes ⟨n + 1, hn⟩) (hRes ⟨n + 1, hn⟩) mAcc (Memref.isWhole_whole _) (fun h => absurd ((isFirst_iff ⟨n + 1, hn⟩).mp h) (Nat.succ_ne_zero n))
        (fun h => hl ((isLast_iff ⟨n + 1, hn⟩).mp h)) (iblk m c 0 ⟨n + 1, hn⟩) (wblk m c ⟨n + 1, hn⟩) (accAt c n (Nat.lt_of_succ_lt hn))

theorem accAt_first (c : Dev nD) (t : Fin cfg0.N) (h0 : t.val = 0) (hl : ¬t.val = 19) :
    accAt m c t.val t.isLt = accFirst c (grid0.coords t) (mFeat t) (hFeat t) (mWts t) (hWts t) (mRes t) (hRes t) mAcc (Memref.isWhole_whole _) ((isFirst_iff t).mpr h0) (fun h => hl ((isLast_iff t).mp h)) (iblk m c 0 t) (wblk m c t) := by
  obtain ⟨n, hn⟩ := t
  cases n with
  | zero => exact rfl
  | succ n => exact absurd h0 (Nat.succ_ne_zero n)

theorem accAt_mid (c : Dev nD) (t : Fin cfg0.N) (h0 : ¬t.val = 0) (hl : ¬t.val = 19) :
    accAt m c t.val t.isLt = accMid c (grid0.coords t) (mFeat t) (hFeat t) (mWts t) (hWts t) (mRes t) (hRes t) mAcc (Memref.isWhole_whole _) (fun h => h0 ((isFirst_iff t).mp h)) (fun h => hl ((isLast_iff t).mp h)) (iblk m c 0 t) (wblk m c t)
      (accAt m c (t.val - 1) (Nat.lt_of_le_of_lt (Nat.sub_le _ _) t.isLt)) := by
  obtain ⟨n, hn⟩ := t
  cases n with
  | zero => exact absurd rfl h0
  | succ n => exact (dif_neg hl).trans rfl

theorem accAt_last (c : Dev nD) (t : Fin cfg0.N) (h0 : ¬t.val = 0) (hl : t.val = 19) :
    accAt m c t.val t.isLt = accLast c (grid0.coords t) (mFeat t) (hFeat t) (mWts t) (hWts t) (mRes t) (hRes t) mAcc (Memref.isWhole_whole _) (fun h => h0 ((isFirst_iff t).mp h)) ((isLast_iff t).mpr hl) (iblk m c 0 t) (wblk m c t)
      (accAt m c (t.val - 1) (Nat.lt_of_le_of_lt (Nat.sub_le _ _) t.isLt)) := by
  obtain ⟨n, hn⟩ := t
  cases n with
  | zero => exact absurd rfl h0
  | succ n => exact (dif_pos hl).trans rfl

/-- The result's buffer after point `t`: at the last point what the body stored; elsewhere nothing is stored and
    nothing consults this (the window is idle and not written back), so any word serves. -/
def resAt (c : Dev nD) (t : Fin cfg0.N) : S1x128.Idx → Elt F .f32 :=
  if hl : t.val = 19 then
    resLast c (grid0.coords t) (mFeat t) (hFeat t) (mWts t) (hWts t) (mRes t) (hRes t) mAcc (Memref.isWhole_whole _) (fun h => (fun h => by (try dsimp only at h); omega) ((isFirst_iff t).mp h)) ((isLast_iff t).mpr hl) (iblk m c 0 t) (wblk m c t)
      (accAt m c (t.val - 1) (Nat.lt_of_le_of_lt (Nat.sub_le _ _) t.isLt))
  else fun _ => Scalar.ofBits .f32 0#32

theorem resAt_last (c : Dev nD) (t : Fin cfg0.N) (h0 : ¬t.val = 0) (hl : t.val = 19) :
    resAt m c t = resLast c (grid0.coords t) (mFeat t) (hFeat t) (mWts t) (hWts t) (mRes t) (hRes t) mAcc (Memref.isWhole_whole _) (fun h => h0 ((isFirst_iff t).mp h)) ((isLast_iff t).mpr hl) (iblk m c 0 t) (wblk m c t)
      (accAt m c (t.val - 1) (Nat.lt_of_le_of_lt (Nat.sub_le _ _) t.isLt)) := by
  unfold resAt; exact dif_pos hl

/-! ## The invariant: the accumulator carried between points -/

/-- Before the first point the accumulator holds anything; before point `n + 1` what point `n` left. -/
def PhiS (c : Dev nD) : (n : ℕ) → n ≤ cfg0.N → sProp 𝕄
  | 0, _ => Pipeline.ΦA spec0 c
  | n + 1, hn => iprop(iprop(owns (c : Thread nD τ) mAcc fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) mAcc fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) mAcc fullShare (accAt m c (n - 1) (by omega))) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => resAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_features (c : Dev nD) (t : Fin cfg0.N) : (dats m 0 c).after 0 t = iblk m c 0 t := by dsimp only [dats]
theorem after_weights (c : Dev nD) (t : Fin cfg0.N) : (dats m 0 c).after 1 t = wblk m c t := by dsimp only [dats]
theorem after_result (c : Dev nD) (t : Fin cfg0.N) : (dats m 0 c).after 2 t = resAt m c t := by dsimp only [dats]

/-- The feature window's buffer holds the row's slice when the body runs. -/
theorem before_features (c : Dev nD) (t : Fin cfg0.N) (d) : (dats m 0 c).before 0 t d = iblk m c 0 t :=
  before0_0_of m (dats m 0 c) (A_eq m c 0) (after_features m c) t d

/-- The weight window is fetched at every point, and the fetch fills the whole buffer: it holds the matrix's block. -/
theorem before_weights (c : Dev nD) (t : Fin cfg0.N) (d) : (dats m 0 c).before 1 t d = wblk m c t := by
  unfold Dat.before; rw [if_pos (fetch0_1 t)]
  refine ((dats m 0 c).fetched_of_clip_none 1 t (weights_uncut t) d (fun _ => Scalar.ofBits .f32 0#32)).trans ?_
  unfold Dat.fetched Dat.blockOf wblk iblk; rw [A_eq]; try rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mFeat t) fullShare ((dats m 0 c).before 0 t d))
    ∗ (∃ d, owns (c : Thread nD τ) (mWts t) fullShare ((dats m 0 c).before 1 t d))
    ∗ (∃ d, owns (c : Thread nD τ) (mRes t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_features, before_weights]
  rw [show (dats m 0 c).owesAt () t.succ = (dats m 0 c).owesAt () t.castSucc from rfl]
  rw [show (dats m 0 c).Φ t.succ = PhiS m c (t.val + 1) t.isLt from rfl, PhiS_succ]
  have hN : t.val < 20 := lt_of_lt_of_eq t.isLt (show cfg0.N = 20 from N_0)
  rw [show (dats m 0 c).leavesExact 0 t = owns (c : Thread nD τ) (mFeat t) fullShare ((dats m 0 c).after 0 t) from by
    unfold Dat.leavesExact; rw [live_features t], after_features]
  rw [show (dats m 0 c).leavesExact 1 t = owns (c : Thread nD τ) (mWts t) fullShare ((dats m 0 c).after 1 t) from by
    unfold Dat.leavesExact; rw [live_weights t], after_weights]
  by_cases h0 : t.val = 0
  · have hl : ¬t.val = 19 := by omega
    have hf' : isFirst (grid0.coords t) := (isFirst_iff t).mpr h0
    have hl' : ¬isLast (grid0.coords t) := fun h => hl ((isLast_iff t).mp h)
    rw [Dat.leavesExact_idle (dats m 0 c) 2 t (idle_result t hl') (noFlush_result t hl')]
    rw [accAt_first m c t h0 hl]
    unfold accFirst
    rw [PhiS_castSucc m c t, PhiS_zero m c _ _ h0, PhiA_eq]
    iintro ⟨⟨HS, Hg⟩, Ho, ⟨%d0, H0⟩, ⟨%d1, H1⟩, ⟨%d2, H2⟩⟩
    iapply ((runFirst c (grid0.coords t) _ _ _ _ _ _ _ _ hf' hl' (iblk m c 0 t) (wblk m c t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hg]
    · isplitl [HS]
      · unfold owns; iexists _; isplitr
        swap; · iexact HS
        ipureintro; exact View.read_writes_eq_canon _ _ _ (coverFirst c _ _ _ _ _ _ _ _ _ _ _ _ _)
      iexact Hg
    isplitl [Ho]; · iexact Ho
    isplitl [H0]; · iexact H0
    isplitl [H1]; · iexact H1
    iexists _; iexact H2
  · by_cases hl : t.val = 19
    · have hf' : ¬isFirst (grid0.coords t) := fun h => h0 ((isFirst_iff t).mp h)
      have hl' : isLast (grid0.coords t) := (isLast_iff t).mpr hl
      rw [show (dats m 0 c).leavesExact 2 t = owns (c : Thread nD τ) (mRes t) fullShare ((dats m 0 c).after 2 t) from by
        unfold Dat.leavesExact; rw [live_result t hl'], after_result]
      rw [accAt_last m c t h0 hl, resAt_last m c t h0 hl]
      unfold accLast resLast
      rw [PhiS_castSucc m c t, PhiS_pos m c _ _ h0]
      iintro ⟨⟨HS, Hg⟩, Ho, ⟨%d0, H0⟩, ⟨%d1, H1⟩, ⟨%d2, H2⟩⟩
      iapply ((runLast c (grid0.coords t) _ _ _ _ _ _ _ _ hf' hl' (iblk m c 0 t) (wblk m c t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_eq_canon _ _ _ (coverLastAcc c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_eq_canon _ _ _ (coverLastRes c _ _ _ _ _ _ _ _ _ _ _ _ _ _)
    · have hf' : ¬isFirst (grid0.coords t) := fun h => h0 ((isFirst_iff t).mp h)
      have hl' : ¬isLast (grid0.coords t) := fun h => hl ((isLast_iff t).mp h)
      rw [Dat.leavesExact_idle (dats m 0 c) 2 t (idle_result t hl') (noFlush_result t hl')]
      rw [accAt_mid m c t h0 hl]
      unfold accMid
      rw [PhiS_castSucc m c t, PhiS_pos m c _ _ h0]
      iintro ⟨⟨HS, Hg⟩, Ho, ⟨%d0, H0⟩, ⟨%d1, H1⟩, ⟨%d2, H2⟩⟩
      iapply ((runMid c (grid0.coords t) _ _ _ _ _ _ _ _ hf' hl' (iblk m c 0 t) (wblk m c t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_eq_canon _ _ _ (coverMid c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 20 := N_0; omega), PhiA_eq]
  iintro ⟨HS, Hg⟩
  isplitl [HS]
  · iexists _; iexact HS
  iexact Hg

/-! ## The run and the frame -/

set_option backward.isDefEq.respectTransparency.types false in
/-- Every weakly fair execution of the program terminates; every array of the pipeline ends at what the proof data
    computes, the host lines after the region run on that. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2])
    (hsub := sfx_sub) (hfresh := sfx_fresh) (hkeep := sfx_keeps)
    (hmain := hmain m Variants.none) (hA := A_eq m) (hin := hin m) (hout := hout m)

/-- The program runs and leaves its argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

end Cert.Kernel.Acc

end
-- ==== Proof.KI.Facts.lean ====
/-
  The reduction kernel's grid has twenty points. The body does three things: at the first point it clears the
  accumulator; at every point it adds the product of the point's slice of the feature row with the matching
  columns of the weight matrix to the accumulator; at the last point it copies the accumulator to the result.
  This module decides, over the twenty points, which points are first and last, where the result window is idle and
  where it is written back, and that no block of the weight window reaches past the last column the grid visits
  (the matrix has 64 further columns, which the kernel never stages). It also names the accumulator buffer and
  states the region's invariant with that buffer made explicit.
-/
import proofs.«140559_j39006892982336_1_alg».proof.Proof.Gen.KernelIdeal.Frame
import proofs.«140559_j39006892982336_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## First and last point -/

/-- The body's first branch condition at coordinates `i`: the point's number is zero. -/
abbrev isFirst (i : grid0.Coords) : Prop :=
  (Scalar.cmpi .ne (Scalar.extui (Scalar.cmpi .eq (BitVec.ofNat 32 (i 0).val) 0#32)) 0#32) = 1#1
/-- It holds exactly at point 0. -/
theorem isFirst_iff : ∀ t : Fin cfg0.N, isFirst (grid0.coords t) ↔ t.val = 0 :=
  (by decide +kernel : ∀ t : Fin grid0.N, isFirst (grid0.coords t) ↔ t.val = 0)

/-- The body's second branch condition: the point's number is nineteen. -/
abbrev isLast (i : grid0.Coords) : Prop := k0_cond2 i = 1#1
/-- It holds exactly at point 19. -/
theorem isLast_iff : ∀ t : Fin cfg0.N, isLast (grid0.coords t) ↔ t.val = 19 :=
  (by decide +kernel : ∀ t : Fin grid0.N, isLast (grid0.coords t) ↔ t.val = 19)

/-! ## Where each window is idle, written back, cut -/

theorem live_features : ∀ t : Fin cfg0.N, cfg0.idle 0 (grid0.coords t) = false := by decide +kernel
theorem live_weights : ∀ t : Fin cfg0.N, cfg0.idle 1 (grid0.coords t) = false := by decide +kernel
/-- Away from the last point nothing is stored into the result's buffer, -/
theorem idle_result : ∀ t : Fin cfg0.N, ¬isLast (grid0.coords t) → cfg0.idle 2 (grid0.coords t) = true := by decide +kernel
/-- and it is not written back there; -/
theorem noFlush_result : ∀ t : Fin cfg0.N, ¬isLast (grid0.coords t) → (cfg0.win 2).flush t = false := by decide +kernel
/-- at the last point it is stored into. -/
theorem live_result : ∀ t : Fin cfg0.N, isLast (grid0.coords t) → cfg0.idle 2 (grid0.coords t) = false := by decide +kernel

/-- Every block of the weight window the grid visits lies inside the matrix: columns 32000 t to 32000 t + 31999,
    all below 640000. -/
theorem weights_uncut : ∀ t : Fin cfg0.N, ∀ a, (cfg0.win 1).clip (grid0.coords t) a = none :=
  (by decide +kernel : ∀ t : Fin grid0.N, ∀ a, win0_1.clip (grid0.coords t) a = none)

/-! ## The buffers the body is called with -/

/-- One staging buffer of the result window, through which its contents are stated. -/
abbrev resV : View sig .tc .vmem S1x128 .f32 := (Memref.whole cc0_stg2_0 : Memref sig .tc .vmem S1x128 .f32).view
abbrev mFeat (t : Fin cfg0.N) : Memref sig .tc .vmem S1x32000 .f32 := win0_0.stage (cfg0.slots t 0)
abbrev hFeat (t : Fin cfg0.N) : (mFeat t).IsWhole := hstage0_0 ((cfg0.slots t 0).cast nbuf0_0)
abbrev mWts (t : Fin cfg0.N) : Memref sig .tc .vmem S128x32000 .f32 := win0_1.stage (cfg0.slots t 1)
abbrev hWts (t : Fin cfg0.N) : (mWts t).IsWhole := hstage0_1 ((cfg0.slots t 1).cast nbuf0_1)
abbrev mRes (t : Fin cfg0.N) : Memref sig .tc .vmem S1x128 .f32 := win0_2.stage (cfg0.slots t 2)
abbrev hRes (t : Fin cfg0.N) : (mRes t).IsWhole := hstage0_2 ((cfg0.slots t 2).cast nbuf0_2)
/-- The accumulator: a whole buffer of the kernel's own, kept from point to point. -/
abbrev mAcc : Memref sig .tc .vmem S1x128 .f32 := Memref.whole cc0_scratch0
abbrev accV : View sig .tc .vmem S1x128 .f32 := mAcc.view

/-- The region's invariant with the accumulator as a buffer owned at some contents. -/
theorem PhiA_eq (c : Dev nD) :
    (Pipeline.ΦA spec0 c : sProp 𝕄)
      = iprop(iprop((∃ d, owns (c : Thread nD τ) mAcc fullShare d)) ∗ (∃ r, prngReg c r)) := by
  unfold Pipeline.ΦA; rw [scopedRest0_eq]; simp only [mAcc, owns_whole]; try rfl

end Cert.KernelIdeal.Acc

end
-- ==== Proof.KI.RunFirst.lean ====
/-
  The body at the first point. The accumulator holds anything; the body clears it, reads the slice of the feature row
  and the block of the weight matrix, adds their product to the cleared accumulator and stores the sum back. Nothing
  is stored into the result's buffer, which is handed back as it was found. What the accumulator ends with is
  recorded as the list of pieces the body's stores wrote, newest first.
-/
import proofs.«140559_j39006892982336_1_alg».proof.Proof.KI.Facts

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The pieces the first point's stores leave in the accumulator, with the proof that the body runs: the two input
    buffers at their contents `x0`, `x1` and the result's buffer at `xr` come back unchanged. -/
noncomputable def runFirst (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : isFirst i) (hl : ¬isLast i)
    (x0 : Vec F S1x32000 .f32) (x1 : Vec F S128x32000 .f32) :
    { LS : List (View.Piece (Elt F) S1x128 .f32) //
      ∀ (xr : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xr
            ∗ (∃ d, owns (c : Thread nD τ) arg4 fullShare d)
            ∗ (iprop(owns (c : Thread nD τ) arg1 fullShare x0 ∗ owns (c : Thread nD τ) arg2 fullShare x1 ∗ owns (c : Thread nD τ) arg3 fullShare xr
                ∗ (∃ f, arg4.view.loc (c : Thread nD τ) ↦[arg4.view.set]{fullShare} arg4.view.writes (Elt F) f LS)) -∗ K ⟨⟩))
          ⊢ wp frame (wpE (defs₀ (F := F)) Variants.none c none) E (cc0__of1_reduce_kernel i arg1 harg1 arg2 harg2 arg3 harg3 arg4 harg4) K } := by
  refine ⟨?_, fun xr E K => ?run⟩
  case run =>
    simp only [cc0__of1_reduce_kernel_eq_skeleton]; unfold cc0__of1_reduce_kernel_skel
    unfold owns
    iintro ⟨⟨%f0, %hf0, H0⟩, ⟨%f1, %hf1, H1⟩, ⟨%f2, %hf2, H2⟩, ⟨%ds, %fs, -, HS⟩, Hk⟩
    obtain rfl := harg1.eq_unread hf0; obtain rfl := harg2.eq_unread hf1; obtain rfl := harg3.eq_unread hf2
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

end Cert.KernelIdeal.Acc

end
-- ==== Proof.KI.RunMid.lean ====
/-
  The body at a point that is neither first nor last. The accumulator holds what the point before left, `xs`; the
  body adds the product of the point's slice of the feature row with its block of the weight matrix and stores the
  sum back. The result's buffer is handed back as found.
-/
import proofs.«140559_j39006892982336_1_alg».proof.Proof.KI.RunFirst

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The pieces a middle point's store leaves in the accumulator, with the proof that the body runs. -/
noncomputable def runMid (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : ¬isLast i)
    (x0 : Vec F S1x32000 .f32) (x1 : Vec F S128x32000 .f32) (xs : Vec F S1x128 .f32) :
    { LS : List (View.Piece (Elt F) S1x128 .f32) //
      ∀ (xr : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xr
            ∗ owns (c : Thread nD τ) arg4 fullShare xs
            ∗ (iprop(owns (c : Thread nD τ) arg1 fullShare x0 ∗ owns (c : Thread nD τ) arg2 fullShare x1 ∗ owns (c : Thread nD τ) arg3 fullShare xr
                ∗ (∃ f, arg4.view.loc (c : Thread nD τ) ↦[arg4.view.set]{fullShare} arg4.view.writes (Elt F) f LS)) -∗ K ⟨⟩))
          ⊢ wp frame (wpE (defs₀ (F := F)) Variants.none c none) E (cc0__of1_reduce_kernel i arg1 harg1 arg2 harg2 arg3 harg3 arg4 harg4) K } := by
  refine ⟨?_, fun xr E K => ?run⟩
  case run =>
    simp only [cc0__of1_reduce_kernel_eq_skeleton]; unfold cc0__of1_reduce_kernel_skel
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2
    obtain rfl := harg4.eq_unread hfs
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

end Cert.KernelIdeal.Acc

end
-- ==== Proof.KI.RunLast.lean ====
/-
  The body at the last point. The accumulator holds what the point before left, `xs`; the body adds the last
  product, stores the sum back, reads it again and stores it into the result's buffer, which held anything.
-/
import proofs.«140559_j39006892982336_1_alg».proof.Proof.KI.RunMid

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The pieces the last point's stores leave in the result's buffer (`LR`) and in the accumulator (`LS`), with the
    proof that the body runs. -/
noncomputable def runLast (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : isLast i)
    (x0 : Vec F S1x32000 .f32) (x1 : Vec F S128x32000 .f32) (xs : Vec F S1x128 .f32) :
    Σ' (LR : List (View.Piece (Elt F) S1x128 .f32)), { LS : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f LR)
                ∗ (∃ f, arg4.view.loc (c : Thread nD τ) ↦[arg4.view.set]{fullShare} arg4.view.writes (Elt F) f LS)) -∗ K ⟨⟩))
          ⊢ wp frame (wpE (defs₀ (F := F)) Variants.none c none) E (cc0__of1_reduce_kernel i arg1 harg1 arg2 harg2 arg3 harg3 arg4 harg4) K } := by
  refine ⟨?_, ?_, fun E K => ?run⟩
  case run =>
    simp only [cc0__of1_reduce_kernel_eq_skeleton]; unfold cc0__of1_reduce_kernel_skel
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1
    obtain rfl := harg4.eq_unread hfs
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

end Cert.KernelIdeal.Acc

end
-- ==== Proof.KI.Data.lean ====
/-
  What the kernel's buffers hold after each grid point, and the body's obligation to the pipeline.

  After point `t` the feature window's buffer holds the row's slice `[32000 t, 32000 t + 32000)`, the weight
  window's buffer the matrix's columns of the same range, and the accumulator
      acc 0 = (0 + slice 0 · block 0ᵀ),   acc (n + 1) = acc n + slice (n + 1) · block (n + 1)ᵀ,
  defined by recursion on the point through what each case of the body stores. The result's buffer is written
  only at the last point, with the accumulator's final contents. The region's invariant carries the accumulator
  at `acc (t - 1)` before point `t` (at anything before the first point).
-/
import proofs.«140559_j39006892982336_1_alg».proof.Proof.KI.RunLast
import Idealize.ShloMosaic.Lib.Pipeline.FrameSuffix

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the body reads -/

/-- The weight window's block at point `t` in the block's full shape. (Every visited block lies inside the matrix, so
    the filler is never read: `weights_uncut`.) -/
def wblk (c : Dev nD) (t : Fin cfg0.N) : S128x32000.Idx → Elt F .f32 :=
  win0_1.fill (grid0.coords t) (fun _ => Scalar.ofBits .f32 0#32) (iblk m c 1 t)

/-! ## What each case leaves, read back from its stores -/

theorem coverFirst (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : isFirst i) (hl : ¬isLast i) (x0 : Vec F S1x32000 .f32) (x1 : Vec F S128x32000 .f32) (y : S1x128.Idx) :
    ∃ pc ∈ (runFirst c i arg1 harg1 arg2 harg2 arg3 harg3 arg4 harg4 hf hl x0 x1).1, y ∈ pc.1.set :=
  View.cover_of_tiledL (runFirst c i arg1 harg1 arg2 harg2 arg3 harg3 arg4 harg4 hf hl x0 x1).1 S1x128.size (by sl_kernel_rfl) y
/-- The accumulator after the first point. -/
def accFirst (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : isFirst i) (hl : ¬isLast i) (x0 : Vec F S1x32000 .f32) (x1 : Vec F S128x32000 .f32) : S1x128.Idx → Elt F .f32 :=
  View.canon (runFirst c i arg1 harg1 arg2 harg2 arg3 harg3 arg4 harg4 hf hl x0 x1).1

theorem coverMid (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : ¬isLast i) (x0 : Vec F S1x32000 .f32) (x1 : Vec F S128x32000 .f32) (xs : Vec F S1x128 .f32) (y : S1x128.Idx) :
    ∃ pc ∈ (runMid c i arg1 harg1 arg2 harg2 arg3 harg3 arg4 harg4 hf hl x0 x1 xs).1, y ∈ pc.1.set :=
  View.cover_of_tiledL (runMid c i arg1 harg1 arg2 harg2 arg3 harg3 arg4 harg4 hf hl x0 x1 xs).1 S1x128.size (by sl_kernel_rfl) y
/-- The accumulator after a middle point, from what the point before left in it. -/
def accMid (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : ¬isLast i) (x0 : Vec F S1x32000 .f32) (x1 : Vec F S128x32000 .f32) (xs : Vec F S1x128 .f32) : S1x128.Idx → Elt F .f32 :=
  View.canon (runMid c i arg1 harg1 arg2 harg2 arg3 harg3 arg4 harg4 hf hl x0 x1 xs).1

theorem coverLastAcc (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : isLast i) (x0 : Vec F S1x32000 .f32) (x1 : Vec F S128x32000 .f32) (xs : Vec F S1x128 .f32) (y : S1x128.Idx) :
    ∃ pc ∈ (runLast c i arg1 harg1 arg2 harg2 arg3 harg3 arg4 harg4 hf hl x0 x1 xs).2.1, y ∈ pc.1.set :=
  View.cover_of_tiledL (runLast c i arg1 harg1 arg2 harg2 arg3 harg3 arg4 harg4 hf hl x0 x1 xs).2.1 S1x128.size (by sl_kernel_rfl) y
/-- The accumulator after the last point. -/
def accLast (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : isLast i) (x0 : Vec F S1x32000 .f32) (x1 : Vec F S128x32000 .f32) (xs : Vec F S1x128 .f32) : S1x128.Idx → Elt F .f32 :=
  View.canon (runLast c i arg1 harg1 arg2 harg2 arg3 harg3 arg4 harg4 hf hl x0 x1 xs).2.1

theorem coverLastRes (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : isLast i) (x0 : Vec F S1x32000 .f32) (x1 : Vec F S128x32000 .f32) (xs : Vec F S1x128 .f32) (y : S1x128.Idx) :
    ∃ pc ∈ (runLast c i arg1 harg1 arg2 harg2 arg3 harg3 arg4 harg4 hf hl x0 x1 xs).1, y ∈ pc.1.set :=
  View.cover_of_tiledL (runLast c i arg1 harg1 arg2 harg2 arg3 harg3 arg4 harg4 hf hl x0 x1 xs).1 S1x128.size (by sl_kernel_rfl) y
/-- The result's buffer after the last point. -/
def resLast (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : isLast i) (x0 : Vec F S1x32000 .f32) (x1 : Vec F S128x32000 .f32) (xs : Vec F S1x128 .f32) : S1x128.Idx → Elt F .f32 :=
  View.canon (runLast c i arg1 harg1 arg2 harg2 arg3 harg3 arg4 harg4 hf hl x0 x1 xs).1

/-! ## The accumulation over the grid -/

/-- The accumulator after point `n`. -/
def accAt (c : Dev nD) : (n : ℕ) → n < cfg0.N → (S1x128.Idx → Elt F .f32)
  | 0, hn => accFirst c (grid0.coords ⟨0, hn⟩) (mFeat ⟨0, hn⟩) (hFeat ⟨0, hn⟩) (mWts ⟨0, hn⟩) (hWts ⟨0, hn⟩) (mRes ⟨0, hn⟩) (hRes ⟨0, hn⟩) mAcc (Memref.isWhole_whole _) ((isFirst_iff ⟨0, hn⟩).mpr rfl)
      (fun h => (fun h => by (try dsimp only at h); omega) ((isLast_iff ⟨0, hn⟩).mp h)) (iblk m c 0 ⟨0, hn⟩) (wblk m c ⟨0, hn⟩)
  | n + 1, hn =>
    if hl : n + 1 = 19 then
      accLast c (grid0.coords ⟨n + 1, hn⟩) (mFeat ⟨n + 1, hn⟩) (hFeat ⟨n + 1, hn⟩) (mWts ⟨n + 1, hn⟩) (hWts ⟨n + 1, hn⟩) (mRes ⟨n + 1, hn⟩) (hRes ⟨n + 1, hn⟩) mAcc (Memref.isWhole_whole _) (fun h => absurd ((isFirst_iff ⟨n + 1, hn⟩).mp h) (Nat.succ_ne_zero n))
        ((isLast_iff ⟨n + 1, hn⟩).mpr hl) (iblk m c 0 ⟨n + 1, hn⟩) (wblk m c ⟨n + 1, hn⟩) (accAt c n (Nat.lt_of_succ_lt hn))
    else
      accMid c (grid0.coords ⟨n + 1, hn⟩) (mFeat ⟨n + 1, hn⟩) (hFeat ⟨n + 1, hn⟩) (mWts ⟨n + 1, hn⟩) (hWts ⟨n + 1, hn⟩) (mRes ⟨n + 1, hn⟩) (hRes ⟨n + 1, hn⟩) mAcc (Memref.isWhole_whole _) (fun h => absurd ((isFirst_iff ⟨n + 1, hn⟩).mp h) (Nat.succ_ne_zero n))
        (fun h => hl ((isLast_iff ⟨n + 1, hn⟩).mp h)) (iblk m c 0 ⟨n + 1, hn⟩) (wblk m c ⟨n + 1, hn⟩) (accAt c n (Nat.lt_of_succ_lt hn))

theorem accAt_first (c : Dev nD) (t : Fin cfg0.N) (h0 : t.val = 0) (hl : ¬t.val = 19) :
    accAt m c t.val t.isLt = accFirst c (grid0.coords t) (mFeat t) (hFeat t) (mWts t) (hWts t) (mRes t) (hRes t) mAcc (Memref.isWhole_whole _) ((isFirst_iff t).mpr h0) (fun h => hl ((isLast_iff t).mp h)) (iblk m c 0 t) (wblk m c t) := by
  obtain ⟨n, hn⟩ := t
  cases n with
  | zero => exact rfl
  | succ n => exact absurd h0 (Nat.succ_ne_zero n)

theorem accAt_mid (c : Dev nD) (t : Fin cfg0.N) (h0 : ¬t.val = 0) (hl : ¬t.val = 19) :
    accAt m c t.val t.isLt = accMid c (grid0.coords t) (mFeat t) (hFeat t) (mWts t) (hWts t) (mRes t) (hRes t) mAcc (Memref.isWhole_whole _) (fun h => h0 ((isFirst_iff t).mp h)) (fun h => hl ((isLast_iff t).mp h)) (iblk m c 0 t) (wblk m c t)
      (accAt m c (t.val - 1) (Nat.lt_of_le_of_lt (Nat.sub_le _ _) t.isLt)) := by
  obtain ⟨n, hn⟩ := t
  cases n with
  | zero => exact absurd rfl h0
  | succ n => exact (dif_neg hl).trans rfl

theorem accAt_last (c : Dev nD) (t : Fin cfg0.N) (h0 : ¬t.val = 0) (hl : t.val = 19) :
    accAt m c t.val t.isLt = accLast c (grid0.coords t) (mFeat t) (hFeat t) (mWts t) (hWts t) (mRes t) (hRes t) mAcc (Memref.isWhole_whole _) (fun h => h0 ((isFirst_iff t).mp h)) ((isLast_iff t).mpr hl) (iblk m c 0 t) (wblk m c t)
      (accAt m c (t.val - 1) (Nat.lt_of_le_of_lt (Nat.sub_le _ _) t.isLt)) := by
  obtain ⟨n, hn⟩ := t
  cases n with
  | zero => exact absurd rfl h0
  | succ n => exact (dif_pos hl).trans rfl

/-- The result's buffer after point `t`: at the last point what the body stored; elsewhere nothing is stored and
    nothing consults this (the window is idle and not written back), so any word serves. -/
def resAt (c : Dev nD) (t : Fin cfg0.N) : S1x128.Idx → Elt F .f32 :=
  if hl : t.val = 19 then
    resLast c (grid0.coords t) (mFeat t) (hFeat t) (mWts t) (hWts t) (mRes t) (hRes t) mAcc (Memref.isWhole_whole _) (fun h => (fun h => by (try dsimp only at h); omega) ((isFirst_iff t).mp h)) ((isLast_iff t).mpr hl) (iblk m c 0 t) (wblk m c t)
      (accAt m c (t.val - 1) (Nat.lt_of_le_of_lt (Nat.sub_le _ _) t.isLt))
  else fun _ => Scalar.ofBits .f32 0#32

theorem resAt_last (c : Dev nD) (t : Fin cfg0.N) (h0 : ¬t.val = 0) (hl : t.val = 19) :
    resAt m c t = resLast c (grid0.coords t) (mFeat t) (hFeat t) (mWts t) (hWts t) (mRes t) (hRes t) mAcc (Memref.isWhole_whole _) (fun h => h0 ((isFirst_iff t).mp h)) ((isLast_iff t).mpr hl) (iblk m c 0 t) (wblk m c t)
      (accAt m c (t.val - 1) (Nat.lt_of_le_of_lt (Nat.sub_le _ _) t.isLt)) := by
  unfold resAt; exact dif_pos hl

/-! ## The invariant: the accumulator carried between points -/

/-- Before the first point the accumulator holds anything; before point `n + 1` what point `n` left. -/
def PhiS (c : Dev nD) : (n : ℕ) → n ≤ cfg0.N → sProp 𝕄
  | 0, _ => Pipeline.ΦA spec0 c
  | n + 1, hn => iprop(iprop(owns (c : Thread nD τ) mAcc fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) mAcc fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) mAcc fullShare (accAt m c (n - 1) (by omega))) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => resAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_features (c : Dev nD) (t : Fin cfg0.N) : (dats m 0 c).after 0 t = iblk m c 0 t := by dsimp only [dats]
theorem after_weights (c : Dev nD) (t : Fin cfg0.N) : (dats m 0 c).after 1 t = wblk m c t := by dsimp only [dats]
theorem after_result (c : Dev nD) (t : Fin cfg0.N) : (dats m 0 c).after 2 t = resAt m c t := by dsimp only [dats]

/-- The feature window's buffer holds the row's slice when the body runs. -/
theorem before_features (c : Dev nD) (t : Fin cfg0.N) (d) : (dats m 0 c).before 0 t d = iblk m c 0 t :=
  before0_0_of m (dats m 0 c) (A_eq m c 0) (after_features m c) t d

/-- The weight window is fetched at every point, and the fetch fills the whole buffer: it holds the matrix's block. -/
theorem before_weights (c : Dev nD) (t : Fin cfg0.N) (d) : (dats m 0 c).before 1 t d = wblk m c t := by
  unfold Dat.before; rw [if_pos (fetch0_1 t)]
  refine ((dats m 0 c).fetched_of_clip_none 1 t (weights_uncut t) d (fun _ => Scalar.ofBits .f32 0#32)).trans ?_
  unfold Dat.fetched Dat.blockOf wblk iblk; rw [A_eq]; try rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mFeat t) fullShare ((dats m 0 c).before 0 t d))
    ∗ (∃ d, owns (c : Thread nD τ) (mWts t) fullShare ((dats m 0 c).before 1 t d))
    ∗ (∃ d, owns (c : Thread nD τ) (mRes t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_features, before_weights]
  rw [show (dats m 0 c).owesAt () t.succ = (dats m 0 c).owesAt () t.castSucc from rfl]
  rw [show (dats m 0 c).Φ t.succ = PhiS m c (t.val + 1) t.isLt from rfl, PhiS_succ]
  have hN : t.val < 20 := lt_of_lt_of_eq t.isLt (show cfg0.N = 20 from N_0)
  rw [show (dats m 0 c).leavesExact 0 t = owns (c : Thread nD τ) (mFeat t) fullShare ((dats m 0 c).after 0 t) from by
    unfold Dat.leavesExact; rw [live_features t], after_features]
  rw [show (dats m 0 c).leavesExact 1 t = owns (c : Thread nD τ) (mWts t) fullShare ((dats m 0 c).after 1 t) from by
    unfold Dat.leavesExact; rw [live_weights t], after_weights]
  by_cases h0 : t.val = 0
  · have hl : ¬t.val = 19 := by omega
    have hf' : isFirst (grid0.coords t) := (isFirst_iff t).mpr h0
    have hl' : ¬isLast (grid0.coords t) := fun h => hl ((isLast_iff t).mp h)
    rw [Dat.leavesExact_idle (dats m 0 c) 2 t (idle_result t hl') (noFlush_result t hl')]
    rw [accAt_first m c t h0 hl]
    unfold accFirst
    rw [PhiS_castSucc m c t, PhiS_zero m c _ _ h0, PhiA_eq]
    iintro ⟨⟨HS, Hg⟩, Ho, ⟨%d0, H0⟩, ⟨%d1, H1⟩, ⟨%d2, H2⟩⟩
    iapply ((runFirst c (grid0.coords t) _ _ _ _ _ _ _ _ hf' hl' (iblk m c 0 t) (wblk m c t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hg]
    · isplitl [HS]
      · unfold owns; iexists _; isplitr
        swap; · iexact HS
        ipureintro; exact View.read_writes_eq_canon _ _ _ (coverFirst c _ _ _ _ _ _ _ _ _ _ _ _ _)
      iexact Hg
    isplitl [Ho]; · iexact Ho
    isplitl [H0]; · iexact H0
    isplitl [H1]; · iexact H1
    iexists _; iexact H2
  · by_cases hl : t.val = 19
    · have hf' : ¬isFirst (grid0.coords t) := fun h => h0 ((isFirst_iff t).mp h)
      have hl' : isLast (grid0.coords t) := (isLast_iff t).mpr hl
      rw [show (dats m 0 c).leavesExact 2 t = owns (c : Thread nD τ) (mRes t) fullShare ((dats m 0 c).after 2 t) from by
        unfold Dat.leavesExact; rw [live_result t hl'], after_result]
      rw [accAt_last m c t h0 hl, resAt_last m c t h0 hl]
      unfold accLast resLast
      rw [PhiS_castSucc m c t, PhiS_pos m c _ _ h0]
      iintro ⟨⟨HS, Hg⟩, Ho, ⟨%d0, H0⟩, ⟨%d1, H1⟩, ⟨%d2, H2⟩⟩
      iapply ((runLast c (grid0.coords t) _ _ _ _ _ _ _ _ hf' hl' (iblk m c 0 t) (wblk m c t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_eq_canon _ _ _ (coverLastAcc c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_eq_canon _ _ _ (coverLastRes c _ _ _ _ _ _ _ _ _ _ _ _ _ _)
    · have hf' : ¬isFirst (grid0.coords t) := fun h => h0 ((isFirst_iff t).mp h)
      have hl' : ¬isLast (grid0.coords t) := fun h => hl ((isLast_iff t).mp h)
      rw [Dat.leavesExact_idle (dats m 0 c) 2 t (idle_result t hl') (noFlush_result t hl')]
      rw [accAt_mid m c t h0 hl]
      unfold accMid
      rw [PhiS_castSucc m c t, PhiS_pos m c _ _ h0]
      iintro ⟨⟨HS, Hg⟩, Ho, ⟨%d0, H0⟩, ⟨%d1, H1⟩, ⟨%d2, H2⟩⟩
      iapply ((runMid c (grid0.coords t) _ _ _ _ _ _ _ _ hf' hl' (iblk m c 0 t) (wblk m c t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_eq_canon _ _ _ (coverMid c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 20 := N_0; omega), PhiA_eq]
  iintro ⟨HS, Hg⟩
  isplitl [HS]
  · iexists _; iexact HS
  iexact Hg

/-! ## The run and the frame -/

set_option backward.isDefEq.respectTransparency.types false in
/-- Every weakly fair execution of the program terminates; every array of the pipeline ends at what the proof data
    computes, the host lines after the region run on that. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2])
    (hsub := sfx_sub) (hfresh := sfx_fresh) (hkeep := sfx_keeps)
    (hmain := hmain m Variants.none) (hA := A_eq m) (hin := hin m) (hout := hout m)

/-- The program runs and leaves its argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

end Cert.KernelIdeal.Acc

end
-- ==== Proof.KI.Cases.lean ====
/-
  What each case of the body leaves, as the body's own arithmetic: the accumulator after a point is the point's stored
  value — the sum of what the accumulator held (zero at the first point) and the point's product — and the result's
  buffer after the last point holds the accumulator's final contents. Hence the recursion
      acc 0 = pay (slice 0) (block 0) zero,   acc (n + 1) = pay (slice (n + 1)) (block (n + 1)) (acc n).
-/
import proofs.«140559_j39006892982336_1_alg».proof.Proof.KI.Data
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

theorem hz : (![0, 0] : Fin 2 → Nat) = fun _ => 0 := funext fun a => by fin_cases a <;> rfl

theorem accFirst_eq (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : isFirst i) (hl : ¬isLast i) (x0 : Vec F S1x32000 .f32) (x1 : Vec F S128x32000 .f32) :
    accFirst c i arg1 harg1 arg2 harg2 arg3 harg3 arg4 harg4 hf hl x0 x1 = k0_pay2 x0 x1 k0_pay1 := by
  unfold accFirst
  unfold runFirst
  dsimp only
  sl_unfold_words
  rw [View.canon_cons_unit_zero hz]
  simp only [View.readAt_eq_ld, harg1.read_unread, harg2.read_unread, View.ld_unit_zero (S := S1x32000) hz, View.ld_unit_zero (S := S128x32000) hz]
  rw [View.readCov_unit_zero _ hz]

theorem accMid_eq (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : ¬isLast i) (x0 : Vec F S1x32000 .f32) (x1 : Vec F S128x32000 .f32) (xs : Vec F S1x128 .f32) :
    accMid c i arg1 harg1 arg2 harg2 arg3 harg3 arg4 harg4 hf hl x0 x1 xs = k0_pay2 x0 x1 xs := by
  unfold accMid
  unfold runMid
  dsimp only
  sl_unfold_words
  rw [View.canon_unit_zero hz]
  simp only [View.readAt_eq_ld, harg1.read_unread, harg2.read_unread, harg4.read_unread, View.ld_unit_zero (S := S1x32000) hz, View.ld_unit_zero (S := S128x32000) hz, View.ld_unit_zero (S := S1x128) hz]

theorem accLast_eq (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : isLast i) (x0 : Vec F S1x32000 .f32) (x1 : Vec F S128x32000 .f32) (xs : Vec F S1x128 .f32) :
    accLast c i arg1 harg1 arg2 harg2 arg3 harg3 arg4 harg4 hf hl x0 x1 xs = k0_pay2 x0 x1 xs := by
  unfold accLast
  unfold runLast
  dsimp only
  sl_unfold_words
  rw [View.canon_unit_zero hz]
  simp only [View.readAt_eq_ld, harg1.read_unread, harg2.read_unread, harg4.read_unread, View.ld_unit_zero (S := S1x32000) hz, View.ld_unit_zero (S := S128x32000) hz, View.ld_unit_zero (S := S1x128) hz]

theorem resLast_eq (c : Dev nD) (i : grid0.Coords) (arg1 : Memref sig .tc .vmem S1x32000 .f32) (harg1 : arg1.IsWhole) (arg2 : Memref sig .tc .vmem S128x32000 .f32) (harg2 : arg2.IsWhole) (arg3 : Memref sig .tc .vmem S1x128 .f32) (harg3 : arg3.IsWhole) (arg4 : Memref sig .tc .vmem S1x128 .f32) (harg4 : arg4.IsWhole) (hf : ¬isFirst i) (hl : isLast i) (x0 : Vec F S1x32000 .f32) (x1 : Vec F S128x32000 .f32) (xs : Vec F S1x128 .f32) :
    resLast c i arg1 harg1 arg2 harg2 arg3 harg3 arg4 harg4 hf hl x0 x1 xs = k0_pay2 x0 x1 xs := by
  unfold resLast
  unfold runLast
  dsimp only
  sl_unfold_words
  rw [View.canon_unit_zero hz]
  simp only [View.readAt_eq_ld, harg1.read_unread, harg2.read_unread, harg4.read_unread, View.ld_unit_zero (S := S1x32000) hz, View.ld_unit_zero (S := S128x32000) hz, View.ld_unit_zero (S := S1x128) hz]
  rw [View.readCov_unit_zero _ hz]

/-- The accumulator after the first point. -/
theorem accAt_zero (c : Dev nD) (hn : 0 < cfg0.N) :
    accAt m c 0 hn = k0_pay2 (iblk m c 0 ⟨0, hn⟩) (wblk m c ⟨0, hn⟩) k0_pay1 := by
  rw [accAt]; exact accFirst_eq ..

/-- The accumulator after a later point, from the point before. -/
theorem accAt_succ (c : Dev nD) (n : ℕ) (hn : n + 1 < cfg0.N) :
    accAt m c (n + 1) hn = k0_pay2 (iblk m c 0 ⟨n + 1, hn⟩) (wblk m c ⟨n + 1, hn⟩) (accAt m c n (Nat.lt_of_succ_lt hn)) := by
  rw [accAt]; split
  · exact accLast_eq ..
  · exact accMid_eq ..

/-- The result's buffer after the last point holds the accumulator's final contents. -/
theorem resAt_eq_accAt (c : Dev nD) (t : Fin cfg0.N) (hl : t.val = 19) : resAt m c t = accAt m c t.val t.isLt := by
  have h0 : ¬t.val = 0 := by omega
  rw [resAt_last m c t h0 hl, accAt_last m c t h0 hl, resLast_eq, accLast_eq]

end Cert.KernelIdeal.Acc

end
-- ==== Proof.KI.Payload.lean ====
/-
  One grid point's arithmetic at the ideal values. The body's stored value at a lane `q` is what the accumulator
  held there plus the inner product of the feature slice with row `q` of the weight block: the matrix unit
  contracts the second axis of both operands into a zero accumulator, the change of format to bf16 is the
  identity on extended reals, and the two shape casts are between equal shapes.
-/
import proofs.«140559_j39006892982336_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Acc

open Cert.KernelIdeal Cert.KernelIdeal.Gen
open Idealize.ShloMosaic Idealize.ShloMosaic.TcCoe Idealize.ShloMosaic.ValueIdx

/-- The matrix unit's dimension numbers: both operands contract their second axis. -/
local notation "dd" => dot_S1x32000_S128x32000_S1x128_1_1_0_0_n_n

theorem mm_lhs0 (i : S1x128.Idx) (k : (dd).contr.Idx) : ((dd).lhsIdx i k 0).val = (i 0).val := by
  unfold DotDims.lhsIdx
  rw [dif_neg (show ¬(0 : Fin S1x32000.rank) ∈ (dd).lhsBatch by decide), dif_pos (show (0 : Fin S1x32000.rank) ∈ (dd).lhsNonContracting by decide)]
  rfl
theorem mm_lhs1 (i : S1x128.Idx) (k : (dd).contr.Idx) : ((dd).lhsIdx i k 1).val = (k ⟨0, by decide⟩).val :=
  (dd).lhsIdx_val_of_single rfl i k
theorem mm_rhs0 (i : S1x128.Idx) (k : (dd).contr.Idx) : ((dd).rhsIdx i k 0).val = (i 1).val := by
  unfold DotDims.rhsIdx
  rw [dif_neg (show ¬(0 : Fin S128x32000.rank) ∈ (dd).rhsBatch by decide), dif_pos (show (0 : Fin S128x32000.rank) ∈ (dd).rhsNonContracting by decide)]
  rfl
theorem mm_rhs1 (i : S1x128.Idx) (k : (dd).contr.Idx) : ((dd).rhsIdx i k 1).val = (k ⟨0, by decide⟩).val :=
  (dd).rhsIdx_val_of_single rfl i k

/-- The product into a zero accumulator, lane by lane, as a sum over the 32000 columns of the block. -/
theorem mm_apply (l : FVec Ideal S1x32000 .bf16) (r : FVec Ideal S128x32000 .bf16) (p : Fin 1) (q : Fin 128) :
    FloatOps.matmul (dd) none l r (constant (F := Ideal) S1x128 .f32 0x00000000#32) (ix2 p q) = ∑ k : Fin 32000, l (ix2 p k) * r (ix2 q k) := by
  rw [Ideal.matmul_constant_zero_apply, ← Equiv.sum_comp (contrEquiv1 (dd) 32000 rfl rfl).symm]
  refine Finset.sum_congr rfl fun k _ => ?_
  have hk := contrEquiv1_symm_val (dd) 32000 rfl rfl k
  have el : (dd).lhsIdx (ix2 p q) ((contrEquiv1 (dd) 32000 rfl rfl).symm k) = ix2 p k := funext fun a => Fin.ext (by
    match a with
    | ⟨0, _⟩ => exact mm_lhs0 _ _
    | ⟨1, _⟩ => exact (mm_lhs1 _ _).trans hk)
  have er : (dd).rhsIdx (ix2 p q) ((contrEquiv1 (dd) 32000 rfl rfl).symm k) = ix2 q k := funext fun a => Fin.ext (by
    match a with
    | ⟨0, _⟩ => exact mm_rhs0 _ _
    | ⟨1, _⟩ => exact (mm_rhs1 _ _).trans hk)
  rw [el, er]

/-- What a point stores into the accumulator, at lane `q`. -/
theorem pay2_apply (x0 : Vec Ideal S1x32000 .f32) (x1 : Vec Ideal S128x32000 .f32) (xs : Vec Ideal S1x128 .f32) (p : Fin 1) (q : Fin 128) :
    k0_pay2 (F := Ideal) x0 x1 xs (ix2 p q) = xs (ix2 p q) + ∑ k : Fin 32000, x0 (ix2 p k) * x1 (ix2 q k) := by
  unfold k0_pay2
  show shapeCast S1x128 (addf (F := Ideal) xs (matmul (F := Ideal) (dd) none (truncf (F := Ideal) .bf16 (shapeCast S1x32000 x0 shapeCasts_S1x32000_S1x32000) bitsLt_bf16_f32)
      (truncf (F := Ideal) .bf16 x1 bitsLt_bf16_f32) (constant (F := Ideal) S1x128 .f32 0x00000000#32))) shapeCasts_S1x128_S1x128 (ix2 p q) = _
  rw [shapeCast_self, shapeCast_self, addf_apply]
  refine congrArg (xs (ix2 p q) + ·) ?_
  exact mm_apply _ _ p q

/-- What the first point clears the accumulator to: zero in every lane. -/
theorem pay1_apply (j : S1x128.Idx) : k0_pay1 (F := Ideal) j = 0 := by
  unfold k0_pay1
  show shapeCast S1x128 (broadcast S1x128 (Scalar.ofBits (F := Ideal) .f32 0x00000000#32)) shapeCasts_S1x128_S1x128 j = 0
  rw [shapeCast_self]
  exact Ideal.ofBits_zero_f32

end Cert.KernelIdeal.Acc

end
-- ==== Proof.Sums.lean ====
/-
  Two rearrangements of finite sums in a commutative monoid (no cancellation, no distributivity: they hold for the
  extended reals, infinities included).

  * A sum over `a + b` indices is the sum over the first `a` plus the sum over the last `b`: the contraction over the
    joined feature vector splits into its node part and its weather part.
  * A sum over `T * B` indices is the sum over `T` blocks of the sums within each block of length `B`: the kernel's
    accumulation over its grid is the node part's contraction.
-/
import Mathlib.Algebra.BigOperators.Fin
import Mathlib.Data.Fintype.BigOperators
import Mathlib.Logic.Equiv.Fin.Basic

namespace Cert.Sums

open scoped BigOperators

theorem block_lt {T B t k : ℕ} (ht : t < T) (hk : k < B) : B * t + k < T * B := by
  have h := Nat.mul_le_mul_left B (Nat.succ_le_of_lt ht)
  rw [Nat.mul_succ] at h
  rw [Nat.mul_comm T B]
  omega

/-- A sum over `n = a + b` indices, split at `a`. -/
theorem sum_split {α : Type} [AddCommMonoid α] (a b n : ℕ) (h : n = a + b) (g : Fin n → α) :
    ∑ K : Fin n, g K = ∑ K : Fin a, g ⟨K.val, by omega⟩ + ∑ k : Fin b, g ⟨a + k.val, by omega⟩ := by
  subst h
  rw [Fin.sum_univ_add]
  rfl

/-- A sum over `n = T * B` indices, block by block. -/
theorem sum_blocks {α : Type} [AddCommMonoid α] (T B n : ℕ) (h : n = T * B) (g : Fin n → α) :
    ∑ t : Fin T, ∑ k : Fin B, g ⟨B * t.val + k.val, h ▸ block_lt t.isLt k.isLt⟩ = ∑ K : Fin n, g K := by
  subst h
  rw [← Equiv.sum_comp finProdFinEquiv g, Fintype.sum_prod_type]
  refine Finset.sum_congr rfl fun t _ => Finset.sum_congr rfl fun k _ => congrArg g (Fin.ext ?_)
  simp [finProdFinEquiv]
  omega

end Cert.Sums
-- ==== Proof.Spec.lean ====
/-
  The hidden layer's pre-activation, lane by lane, as plain sums over extended reals — the one place where the two
  programs differ.

  The reference contracts the JOINED feature vector (640000 node features followed by 64 weather features) with a
  row of the 128 × 640064 weight matrix. The kernel contracts the node features with the row's first 640000 entries
  (accumulated block by block on the grid), the weather features with its last 64, and adds the two. Splitting a finite
  sum in a commutative monoid at index 640000 identifies them; nothing about finiteness is used.
-/
import Idealize.ShloMosaic.Lib.ValueIdx
import proofs.«140559_j39006892982336_1_alg».proof.Proof.Sums

noncomputable section

namespace Cert.Spec

open Idealize.ShloMosaic Idealize.ShloMosaic.ValueIdx
open scoped BigOperators

abbrev Snode : Shape := ⟨2, ![1, 640000]⟩
abbrev Sweather : Shape := ⟨2, ![1, 64]⟩
abbrev Sweights : Shape := ⟨2, ![128, 640064]⟩

/-- The node features against the first 640000 entries of row `q`. -/
def nodePart (nf : Snode.Idx → EReal) (W : Sweights.Idx → EReal) (q : Fin 128) : EReal :=
  ∑ K : Fin 640000, nf (ix2 (0 : Fin 1) K) * W (ix2 q ⟨K.val, by have := K.isLt; omega⟩)

/-- The weather features against the last 64 entries of row `q`. -/
def weatherPart (wf : Sweather.Idx → EReal) (W : Sweights.Idx → EReal) (q : Fin 128) : EReal :=
  ∑ k : Fin 64, wf (ix2 (0 : Fin 1) k) * W (ix2 q ⟨640000 + k.val, by have := k.isLt; omega⟩)

/-- Entry `K` of the joined feature vector. -/
def joinedAt (nf : Snode.Idx → EReal) (wf : Sweather.Idx → EReal) (K : Fin 640064) : EReal :=
  if h : K.val < 640000 then nf (ix2 (0 : Fin 1) ⟨K.val, h⟩) else wf (ix2 (0 : Fin 1) ⟨K.val - 640000, by have := K.isLt; omega⟩)

/-- The joined feature vector against the whole of row `q`. -/
def joinedPart (nf : Snode.Idx → EReal) (wf : Sweather.Idx → EReal) (W : Sweights.Idx → EReal) (q : Fin 128) : EReal :=
  ∑ K : Fin 640064, joinedAt nf wf K * W (ix2 q K)

/-- The contraction over the joined vector is the node part plus the weather part. -/
theorem joined_eq (nf : Snode.Idx → EReal) (wf : Sweather.Idx → EReal) (W : Sweights.Idx → EReal) (q : Fin 128) :
    joinedPart nf wf W q = nodePart nf W q + weatherPart wf W q := by
  unfold joinedPart nodePart weatherPart
  rw [Cert.Sums.sum_split 640000 64 640064 (by norm_num)]
  refine congrArg₂ (· + ·) (Finset.sum_congr rfl fun K _ => ?_) (Finset.sum_congr rfl fun k _ => ?_)
  · unfold joinedAt
    rw [dif_pos (show (⟨K.val, by have := K.isLt; omega⟩ : Fin 640064).val < 640000 from K.isLt)]
  · unfold joinedAt
    rw [dif_neg (show ¬(⟨640000 + k.val, by have := k.isLt; omega⟩ : Fin 640064).val < 640000 from by simp)]
    refine congrArg₂ (· * ·) (congrArg (fun z : Fin 64 => wf (ix2 (0 : Fin 1) z)) (Fin.ext ?_)) rfl
    show 640000 + k.val - 640000 = k.val
    omega

end Cert.Spec

end
-- ==== Proof.KI.Value.lean ====
/-
  The kernel's result at the ideal values. After point `n` lane `q` of the accumulator holds the sum, over the
  points `t ≤ n`, of the inner products of the feature row's slice `[32000 t, 32000 t + 32000)` with the same columns of
  row `q` of the weight matrix; after the last point that is the inner product over all 640000 node features.
-/
import proofs.«140559_j39006892982336_1_alg».proof.Proof.KI.Cases
import proofs.«140559_j39006892982336_1_alg».proof.Proof.KI.Payload
import proofs.«140559_j39006892982336_1_alg».proof.Proof.Spec
import Idealize.ShloMosaic.Lib.ValueIdx

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open scoped BigOperators

variable (m : (ℓ : Loc nD τ sig) → Buf (Elt Ideal) ℓ)

/-! ## The arrays and blocks, as functions into the extended reals -/

/-- The node features as the region finds them: one row of 640000 entries. -/
abbrev featRow (c : Dev nD) : FVec Ideal S1x640000 .f32 := V m c main_v95
/-- The weight matrix of the hidden layer, 128 rows of 640064 entries. -/
abbrev wtsMat (c : Dev nD) : FVec Ideal S128x640064 .f32 := V m c main_arg12
/-- The slice of the feature row staged at point `t`. -/
abbrev featBlk (c : Dev nD) (t : Fin cfg0.N) : FVec Ideal S1x32000 .f32 := iblk m c 0 t
/-- The block of the weight matrix staged at point `t`. -/
abbrev wtsBlk (c : Dev nD) (t : Fin cfg0.N) : FVec Ideal S128x32000 .f32 := wblk m c t

/-- Both input windows sit at row block 0 and column block `t`; the result window at block (0, 0). -/
theorem idx_feat : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx_wts : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx_res : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem col_lt {t k : ℕ} (ht : t < 20) (hk : k < 32000) : 32000 * t + k < 640000 := by omega
theorem col_lt' {t k : ℕ} (ht : t < 20) (hk : k < 32000) : 32000 * t + k < 640064 := by omega
theorem t_lt (t : Fin cfg0.N) : t.val < 20 := lt_of_lt_of_eq t.isLt (show cfg0.N = 20 from N_0)

/-- Entry `k` of the feature slice at point `t` is entry `32000 t + k` of the feature row. -/
theorem feat_read (c : Dev nD) (t : Fin cfg0.N) (p : Fin 1) (k : Fin 32000) :
    featBlk m c t (ix2 p k) = featRow m c (ix2 p ⟨32000 * t.val + k.val, col_lt (t_lt t) k.isLt⟩) := by
  obtain ⟨e0, e1⟩ := idx_feat t
  show featRow m c (((cfg0.win 0).blk t).view.emb (ix2 p k)) = _
  refine congrArg (featRow m c) (funext fun a => Fin.ext ?_)
  match a with
  | ⟨0, _⟩ => show win0_0.index t (0 : Fin 2) * 1 + 1 * p.val = p.val; omega
  | ⟨1, _⟩ => show win0_0.index t (1 : Fin 2) * 32000 + 1 * k.val = 32000 * t.val + k.val; omega

/-- Entry `(q, k)` of the weight block at point `t` is entry `(q, 32000 t + k)` of the weight matrix. -/
theorem wts_read (c : Dev nD) (t : Fin cfg0.N) (q : Fin 128) (k : Fin 32000) :
    wtsBlk m c t (ix2 q k) = wtsMat m c (ix2 q ⟨32000 * t.val + k.val, col_lt' (t_lt t) k.isLt⟩) := by
  obtain ⟨e0, e1⟩ := idx_wts t
  have hu : ∀ a, win0_1.clip (grid0.coords t) a = none := weights_uncut t
  have hm : win0_1.moved (grid0.coords t) (ix2 q k) = true :=
    (win0_1.moved_iff _ _).mpr fun a => by
      have := ((ix2 q k : S128x32000.Idx) a).isLt; unfold Window.xsize; rw [hu a]; exact this
  show win0_1.fill (grid0.coords t) (fun _ => Scalar.ofBits (F := Ideal) .f32 0#32) (iblk m c 1 t) (ix2 q k) = _
  unfold Window.fill
  rw [dif_pos hm]
  show wtsMat m c (((cfg0.win 1).blk t).view.emb _) = _
  refine congrArg (wtsMat m c) (funext fun a => Fin.ext ?_)
  match a with
  | ⟨0, _⟩ => show win0_1.index t (0 : Fin 2) * 128 + 1 * q.val = q.val; omega
  | ⟨1, _⟩ => show win0_1.index t (1 : Fin 2) * 32000 + 1 * k.val = 32000 * t.val + k.val; omega

/-! ## The accumulation in closed form -/

/-- Point `t`'s contribution to lane `q`. -/
def blockSum (c : Dev nD) (q : Fin 128) (t : Fin 20) : EReal :=
  ∑ k : Fin 32000, featRow m c (ix2 (0 : Fin 1) ⟨32000 * t.val + k.val, col_lt t.isLt k.isLt⟩)
    * wtsMat m c (ix2 q ⟨32000 * t.val + k.val, col_lt' t.isLt k.isLt⟩)

theorem point_sum (c : Dev nD) (t : Fin cfg0.N) (q : Fin 128) :
    ∑ k : Fin 32000, featBlk m c t (ix2 (0 : Fin 1) k) * wtsBlk m c t (ix2 q k) = blockSum m c q ⟨t.val, t_lt t⟩ := by
  unfold blockSum
  exact Finset.sum_congr rfl fun k _ => by rw [feat_read, wts_read]

theorem accAt_eq (c : Dev nD) : ∀ (n : ℕ) (hn : n < cfg0.N) (q : Fin 128),
    (accAt m c n hn : FVec Ideal S1x128 .f32) (ix2 (0 : Fin 1) q)
      = ∑ t : Fin (n + 1), blockSum m c q ⟨t.val, by have := t.isLt; have := t_lt ⟨n, hn⟩; dsimp only at this; omega⟩
  | 0, hn, q => by
    rw [accAt_zero, pay2_apply, pay1_apply, zero_add, Fin.sum_univ_one]
    exact point_sum m c ⟨0, hn⟩ q
  | n + 1, hn, q => by
    conv_rhs => rw [Fin.sum_univ_castSucc]
    rw [accAt_succ, pay2_apply, accAt_eq c n (Nat.lt_of_succ_lt hn) q]
    refine congrArg₂ (fun (a b : EReal) => a + b) rfl ?_
    exact point_sum m c ⟨n + 1, hn⟩ q

/-- After the last point lane `q` of the accumulator is the node part of the hidden layer's pre-activation. -/
theorem acc_final (c : Dev nD) (h : 19 < cfg0.N) (q : Fin 128) :
    (accAt m c 19 h : FVec Ideal S1x128 .f32) (ix2 (0 : Fin 1) q) = Cert.Spec.nodePart (featRow m c) (wtsMat m c) q := by
  rw [accAt_eq]
  unfold Cert.Spec.nodePart
  refine Eq.trans ?_ (Cert.Sums.sum_blocks 20 32000 640000 (by norm_num)
    (fun K : Fin 640000 => featRow m c (ix2 (0 : Fin 1) K) * wtsMat m c (ix2 q ⟨K.val, by have := K.isLt; omega⟩)))
  exact Finset.sum_congr rfl fun t _ => by unfold blockSum; rfl

end Cert.KernelIdeal.Acc

end
-- ==== Proof.KI.Layers.lean ====
/-
  The layers after the kernel's region: the weather features against the last 64 columns of the weight matrix, then
  the bias, the rectifier and the output layer (`head`).
-/
import proofs.«140559_j39006892982336_1_alg».proof.Proof.KI.Value
import Idealize.ShloMosaic.Lib.StableHlo.Run
import Idealize.ShloMosaic.Lib.Pipeline.FrameSuffix
import Idealize.ShloMosaic.Lib.Pipeline.Value
import Idealize.ShloMosaic.PureOps.Ideal.Laws

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open scoped BigOperators

open Idealize.ShloMosaic.StableHlo

variable (m : (ℓ : Loc nD τ sig) → Buf (Elt Ideal) ℓ) (ρ : Dev nD → PrngReg)

/-! ## The last layers -/

/-- The layers after the hidden layer's pre-activation `pre`: the bias, the rectifier, the output layer and its
    bias, the result as a vector. -/
def head (pre : FVec Ideal S1x128 .f32) (b13 : FVec Ideal S128 .f32) (W14 : FVec Ideal S10000x128 .f32) (b15 : FVec Ideal S10000 .f32) :
    FVec Ideal S10000 .f32 :=
  shapeCast S10000 (addf (F := Ideal) (Host.dotGeneral (F := Ideal) dot_S1x128_S128x10000_S1x10000_1_0_0_1_n_n none
      (maximumf (F := Ideal) (addf (F := Ideal) pre (broadcastInDim S1x128 ![1] bcast_S128_S1x128_1 b13))
        (broadcastInDim S1x128 ![] bcast_S_S1x128 (constant (F := Ideal) S_ .f32 0x00000000#32)))
      (transpose S128x10000 [1, 0] W14 transposes_S10000x128_S128x10000_1_0))
    (broadcastInDim S1x10000 ![1] bcast_S10000_S1x10000_1 b15)) shapeCasts_S1x10000_S10000

/-- The weather features against the last 64 columns of the weight matrix. -/
def weatherDot (wf : FVec Ideal S1x64 .f32) (W : FVec Ideal S128x640064 .f32) : FVec Ideal S1x128 .f32 :=
  Host.dotGeneral (F := Ideal) dot_S1x64_S64x128_S1x128_1_0_0_1_n_n none wf
    (transpose S64x128 [1, 0] (extractStridedSlice S128x64 ![0, 640000] W slices_S128x640064_S128x64_0_640000) transposes_S128x64_S64x128_1_0)

local notation "dW" => dot_S1x64_S64x128_S1x128_1_0_0_1_n_n

theorem dw_lhs0 (i : S1x128.Idx) (k : (dW).contr.Idx) : ((dW).lhsIdx i k 0).val = (i 0).val := by
  unfold DotDims.lhsIdx
  rw [dif_neg (show ¬(0 : Fin S1x64.rank) ∈ (dW).lhsBatch by decide), dif_pos (show (0 : Fin S1x64.rank) ∈ (dW).lhsNonContracting by decide)]
  rfl
theorem dw_lhs1 (i : S1x128.Idx) (k : (dW).contr.Idx) : ((dW).lhsIdx i k 1).val = (k ⟨0, by decide⟩).val :=
  (dW).lhsIdx_val_of_single rfl i k
theorem dw_rhs0 (i : S1x128.Idx) (k : (dW).contr.Idx) : ((dW).rhsIdx i k 0).val = (k ⟨0, by decide⟩).val :=
  (dW).rhsIdx_val_of_single rfl i k
theorem dw_rhs1 (i : S1x128.Idx) (k : (dW).contr.Idx) : ((dW).rhsIdx i k 1).val = (i 1).val := by
  unfold DotDims.rhsIdx
  rw [dif_neg (show ¬(1 : Fin S64x128.rank) ∈ (dW).rhsBatch by decide), dif_pos (show (1 : Fin S64x128.rank) ∈ (dW).rhsNonContracting by decide)]
  rfl

/-- Lane `q` of the weather part. -/
theorem weatherDot_apply (wf : FVec Ideal S1x64 .f32) (W : FVec Ideal S128x640064 .f32) (p : Fin 1) (q : Fin 128) :
    weatherDot wf W (ix2 p q) = Cert.Spec.weatherPart wf W q := by
  unfold weatherDot Cert.Spec.weatherPart
  simp only [Host.dotGeneral]
  rw [Ideal.dotGeneral_apply, ← Equiv.sum_comp (contrEquiv1 (dW) 64 rfl rfl).symm]
  refine Finset.sum_congr rfl fun k _ => ?_
  have hk := contrEquiv1_symm_val (dW) 64 rfl rfl k
  have el : (dW).lhsIdx (ix2 p q) ((contrEquiv1 (dW) 64 rfl rfl).symm k) = ix2 p k := funext fun a => Fin.ext (by
    match a with
    | ⟨0, _⟩ => exact dw_lhs0 _ _
    | ⟨1, _⟩ => exact (dw_lhs1 _ _).trans hk)
  have er : (dW).rhsIdx (ix2 p q) ((contrEquiv1 (dW) 64 rfl rfl).symm k) = ix2 k q := funext fun a => Fin.ext (by
    match a with
    | ⟨0, _⟩ => exact (dw_rhs0 _ _).trans hk
    | ⟨1, _⟩ => exact dw_rhs1 _ _)
  rw [el, er]
  have hp : p = (0 : Fin 1) := Fin.ext (by have := p.isLt; omega)
  subst hp
  refine congrArg (wf (ix2 (0 : Fin 1) k) * ·) ?_
  refine (transpose_apply [1, 0] _ transposes_S128x64_S64x128_1_0 (ix2 k q) (ix2 q k) (fun b => by
      match b with
      | ⟨0, _⟩ => rfl
      | ⟨1, _⟩ => rfl)).trans ?_
  exact extractStridedSlice_apply ![0, 640000] W slices_S128x640064_S128x64_0_640000 (ix2 q k)
    (ix2 q ⟨640000 + k.val, by have := k.isLt; omega⟩) (fun a => by
      match a with
      | ⟨0, _⟩ => show q.val = 0 + q.val; omega
      | ⟨1, _⟩ => rfl)

end Cert.KernelIdeal.Acc

end
-- ==== Proof.KI.Final.lean ====
/-
  The result array after the region. The one write-back (at the last point, of the whole 1 × 128 block) leaves the node
  part of the hidden layer's pre-activation, lane by lane.
-/
import proofs.«140559_j39006892982336_1_alg».proof.Proof.KI.Layers
import Idealize.ShloMosaic.Lib.StableHlo.Run
import Idealize.ShloMosaic.Lib.Pipeline.FrameSuffix
import Idealize.ShloMosaic.Lib.Pipeline.Value
import Idealize.ShloMosaic.PureOps.Ideal.Laws

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open scoped BigOperators

open Idealize.ShloMosaic.StableHlo

variable (m : (ℓ : Loc nD τ sig) → Buf (Elt Ideal) ℓ) (ρ : Dev nD → PrngReg)

/-! ## The result array after the region -/

attribute [local irreducible] Cert.Spec.nodePart

/-- The node part, lane by lane. -/
def resArr (c : Dev nD) : FVec Ideal S1x128 .f32 :=
  fun j => Cert.Spec.nodePart (featRow m c) (wtsMat m c) ⟨(j 1).val, (j 1).isLt⟩

theorem resArr_apply (c : Dev nD) (j : S1x128.Idx) :
    resArr m c j = Cert.Spec.nodePart (featRow m c) (wtsMat m c) ⟨(j 1).val, (j 1).isLt⟩ := rfl

/-- What the last point writes back is the whole of `resArr`. -/
theorem flushed_res (c : Dev nD) (t : Fin cfg0.N) (hf : (cfg0.win 2).flush t = true) :
    (dats m 0 c).flushed 2 t = ((cfg0.win 2).blk t).view.read (Elt Ideal) (resArr m c) := by
  have hl : t.val = 19 := by have := (flush0_2 t).mp hf; have := t_lt t; omega
  show (cfg0.win 2).cut (grid0.coords t) ((dats m 0 c).after 2 t) = _
  rw [after_result, resAt_eq_accAt m c t hl]
  obtain ⟨n, hn⟩ := t
  dsimp only at hl
  subst hl
  obtain ⟨e0, e1⟩ := idx_res ⟨19, hn⟩
  funext j
  have h0 : (j 0).val < 1 := (j 0).isLt
  have h1 : (j 1).val < 128 := (j 1).isLt
  have hy : win0_2.xinj (grid0.coords ⟨19, hn⟩) j = ix2 (0 : Fin 1) (⟨(j 1).val, h1⟩ : Fin 128) := funext fun a => Fin.ext (by
    match a with
    | ⟨0, _⟩ => show (j 0).val = 0; omega
    | ⟨1, _⟩ => rfl)
  have hq : (⟨((((cfg0.win 2).blk ⟨19, hn⟩).view.emb j) 1).val, ((((cfg0.win 2).blk ⟨19, hn⟩).view.emb j) 1).isLt⟩ : Fin 128) = ⟨(j 1).val, h1⟩ :=
    Fin.ext (by
      show win0_2.index ⟨19, hn⟩ (1 : Fin 2) * 128 + 1 * (j 1).val = (j 1).val
      omega)
  rw [View.read_apply, resArr_apply, hq]
  show (accAt m c 19 hn : FVec Ideal S1x128 .f32) (win0_2.xinj (grid0.coords ⟨19, hn⟩) j) = _
  rw [hy]
  refine (acc_final m c hn ⟨(j 1).val, h1⟩).trans ?_
  exact (cast_eq _ _).symm

/-- The last point's block is the whole array. -/
theorem cover_res (c : Dev nD) : ∀ i : ((cfg0.win 2).arr.view.loc (c.tc : Thread nD τ)).2.ty.Idx,
    ∃ t : Fin cfg0.N, (cfg0.win 2).flush t = true ∧ i ∈ ((cfg0.win 2).blk t).view.set := fun i => by
  have h19 : 19 < cfg0.N := by rw [show cfg0.N = 20 from N_0]; norm_num
  obtain ⟨e0, e1⟩ := idx_res ⟨19, h19⟩
  refine ⟨⟨19, h19⟩, (flush0_2 _).mpr rfl, ?_⟩
  show i ∈ ((View.whole main_v106).slice (win0_2.rect ⟨19, h19⟩)).set
  rw [View.set_slice_whole, Rect.mem_set_unit]
  intro a
  match a with
  | ⟨0, _⟩ =>
    show win0_2.index ⟨19, h19⟩ (0 : Fin 2) * 1 ≤ (i 0).val ∧ (i 0).val < win0_2.index ⟨19, h19⟩ (0 : Fin 2) * 1 + 1
    have : (i 0).val < 1 := (i 0).isLt
    omega
  | ⟨1, _⟩ =>
    show win0_2.index ⟨19, h19⟩ (1 : Fin 2) * 128 ≤ (i 1).val ∧ (i 1).val < win0_2.index ⟨19, h19⟩ (1 : Fin 2) * 128 + 128
    have : (i 1).val < 128 := (i 1).isLt
    omega

/-- The result array after the region. -/
theorem final_res (c : Dev nD) : (dats m 0 c).arrAt 2 cfg0.N = resArr m c :=
  (dats m 0 c).arrAt_eq_of_cover 2 (resArr m c) (fun t hf => flushed_res m c t hf) (cover_res c)

end Cert.KernelIdeal.Acc

end
-- ==== Proof.KI.Result.lean ====
/-
  The kernel's result. The one write-back (at the last point, of the whole 1 × 128 block) leaves the node part of the
  hidden layer's pre-activation in the result array. The host lines after the region add the weather part — the
  weather features against the last 64 columns of the weight matrix — and the bias, apply the rectifier and the output
  layer: `head` of the sum.
-/
import proofs.«140559_j39006892982336_1_alg».proof.Proof.KI.Final
import Idealize.ShloMosaic.Lib.StableHlo.Run
import Idealize.ShloMosaic.Lib.Pipeline.FrameSuffix
import Idealize.ShloMosaic.Lib.Pipeline.Value
import Idealize.ShloMosaic.PureOps.Ideal.Laws

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open scoped BigOperators

open Idealize.ShloMosaic.StableHlo

variable (m : (ℓ : Loc nD τ sig) → Buf (Elt Ideal) ℓ) (ρ : Dev nD → PrngReg)

/-! ## The program's result -/

/-- What the program returns, as a function of the arrays the region finds. -/
def kres (c : Dev nD) : FVec Ideal S10000 .f32 :=
  head (addf (F := Ideal) (resArr m c) (weatherDot (V m c main_v105) (wtsMat m c))) (V m c main_arg13) (V m c main_arg14) (V m c main_arg15)

theorem result_eq (c : Dev nD) :
    Pipeline.afterTail₀ cfgs (dats m) 0 (V0 m) [hostOps1, hostOps1_1, hostOps1_2] c main_v118 = kres m c := by
  have e106 : Pipeline.withArrays (cfgs 0).spec c (V0 m c) (fun w => (dats m 0 c).arrAt w (cfgs 0).N) (Proc.devRef .tc main_v106) = resArr m c :=
    (Pipeline.withArrays_arr spec0 launch0.win.arr_inj c _ _ 2).trans (final_res m c)
  have e12 : Pipeline.withArrays (cfgs 0).spec c (V0 m c) (fun w => (dats m 0 c).arrAt w (cfgs 0).N) (Proc.devRef .tc main_arg12) = wtsMat m c :=
    (Pipeline.withArrays_arr spec0 launch0.win.arr_inj c _ _ 1).trans (((dats m 0 c).arrAt_in 1 rfl _).trans (A_eq m c 1))
  have e105 : Pipeline.withArrays (cfgs 0).spec c (V0 m c) (fun w => (dats m 0 c).arrAt w (cfgs 0).N) (Proc.devRef .tc main_v105) = V m c main_v105 :=
    Pipeline.withArrays_of_ne _ c (V0 m c) _ main_v105 (by exact (by decide : ∀ w, Pipeline.arrRef spec0 w ≠ main_v105))
  have e13 : Pipeline.withArrays (cfgs 0).spec c (V0 m c) (fun w => (dats m 0 c).arrAt w (cfgs 0).N) (Proc.devRef .tc main_arg13) = V m c main_arg13 :=
    Pipeline.withArrays_of_ne _ c (V0 m c) _ main_arg13 (by exact (by decide : ∀ w, Pipeline.arrRef spec0 w ≠ main_arg13))
  have e14 : Pipeline.withArrays (cfgs 0).spec c (V0 m c) (fun w => (dats m 0 c).arrAt w (cfgs 0).N) (Proc.devRef .tc main_arg14) = V m c main_arg14 :=
    Pipeline.withArrays_of_ne _ c (V0 m c) _ main_arg14 (by exact (by decide : ∀ w, Pipeline.arrRef spec0 w ≠ main_arg14))
  have e15 : Pipeline.withArrays (cfgs 0).spec c (V0 m c) (fun w => (dats m 0 c).arrAt w (cfgs 0).N) (Proc.devRef .tc main_arg15) = V m c main_arg15 :=
    Pipeline.withArrays_of_ne _ c (V0 m c) _ main_arg15 (by exact (by decide : ∀ w, Pipeline.arrRef spec0 w ≠ main_arg15))
  unfold Pipeline.afterTail₀
  simp only [hostOps1, hostOps1_1, hostOps1_2, List.flatten_cons, List.flatten_nil, List.append_nil, List.cons_append, List.nil_append]
  after_results_simp
  rw [e106, e12, e105, e13, e14, e15]
  unfold kres
  generalize resArr m c = A2
  generalize wtsMat m c = A1
  generalize V m c main_v105 = B5
  generalize V m c main_arg13 = B13
  generalize V m c main_arg14 = B14
  generalize V m c main_arg15 = B15
  have c113 : ∀ v : (⟨S1x128, .f32⟩ : BufTy).Contents (Elt Ideal), (TRef.of (sig := sig) (T := ⟨S1x128, .f32⟩) main_v113).toBuf v = v := fun _ => rfl
  have c112 : ∀ v : (⟨S1x128, .f32⟩ : BufTy).Contents (Elt Ideal), (TRef.of (sig := sig) (T := ⟨S1x128, .f32⟩) main_v112).ofBuf v = v := fun _ => rfl
  have c60a : ∀ v : (⟨S1x128, .f32⟩ : BufTy).Contents (Elt Ideal), (TRef.of (sig := sig) (T := ⟨S1x128, .f32⟩) main_call6_v0).toBuf v = v := fun _ => rfl
  have c60b : ∀ v : (⟨S1x128, .f32⟩ : BufTy).Contents (Elt Ideal), (TRef.of (sig := sig) (T := ⟨S1x128, .f32⟩) main_call6_v0).ofBuf v = v := fun _ => rfl
  have ccsa : ∀ v : (⟨S_, .f32⟩ : BufTy).Contents (Elt Ideal), (TRef.of (sig := sig) (T := ⟨S_, .f32⟩) main_call6_cst).toBuf v = v := fun _ => rfl
  have ccsb : ∀ v : (⟨S_, .f32⟩ : BufTy).Contents (Elt Ideal), (TRef.of (sig := sig) (T := ⟨S_, .f32⟩) main_call6_cst).ofBuf v = v := fun _ => rfl
  simp only [c113, c112, c60a, c60b, ccsa, ccsb]
  unfold head weatherDot
  rfl

/-- THE RUN with its result named: every weakly fair execution terminates, the result buffer holds `kres`, the
    argument arrays are as launched. -/
theorem run_value : θ_run defs (onTc (τ := τ) (main (F := Ideal))) ⟨m, fun _ => 0, ρ⟩ (fun r => ∀ c : Dev nD,
      r.2.mem ((c.tc : Thread nD τ).loc main_v118) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_v118 (Pipeline.mem_restRefs_of main_v118 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      ((h c).1 1).trans (((dats m 0 c).arrAt_in 1 rfl _).trans ((A_eq m c 1).trans (V_main_arg12 m c))),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c))⟩) (run_main m ρ)

end Cert.KernelIdeal.Acc

end
-- ==== Proof.KI.Casts.lean ====
/-
  The values of the module's outlined functions (the selections, rectifiers and the clip) live in buffers whose
  declared types are the values' types; reading or writing such a buffer at the value's type changes nothing.
  One equation per buffer and direction.
-/
import proofs.«140559_j39006892982336_1_alg».proof.Proof.Gen.KernelIdeal.Launch
import Idealize.ShloMosaic.Lib.StableHlo

noncomputable section

namespace Cert.KernelIdeal.Acc

open Cert.KernelIdeal Cert.KernelIdeal.Gen
open Idealize.ShloMosaic Idealize.ShloMosaic.StableHlo

variable {Val : EltTy → Type}

theorem toBuf_main_cst_2 (v : (⟨S_, .f32⟩ : BufTy).Contents Val) : (TRef.of (sig := sig) (T := ⟨S_, .f32⟩) main_cst_2).toBuf v = v := rfl
theorem ofBuf_main_cst_2 (v : (⟨S_, .f32⟩ : BufTy).Contents Val) : (TRef.of (sig := sig) (T := ⟨S_, .f32⟩) main_cst_2).ofBuf v = v := rfl
theorem toBuf_main_call0_v0 (v : (⟨S_, .f32⟩ : BufTy).Contents Val) : (TRef.of (sig := sig) (T := ⟨S_, .f32⟩) main_call0_v0).toBuf v = v := rfl
theorem ofBuf_main_call0_v0 (v : (⟨S_, .f32⟩ : BufTy).Contents Val) : (TRef.of (sig := sig) (T := ⟨S_, .f32⟩) main_call0_v0).ofBuf v = v := rfl
theorem toBuf_main_call0_v1 (v : (⟨S10000, .f32⟩ : BufTy).Contents Val) : (TRef.of (sig := sig) (T := ⟨S10000, .f32⟩) main_call0_v1).toBuf v = v := rfl
theorem ofBuf_main_call0_v1 (v : (⟨S10000, .f32⟩ : BufTy).Contents Val) : (TRef.of (sig := sig) (T := ⟨S10000, .f32⟩) main_call0_v1).ofBuf v = v := rfl
theorem toBuf_main_v12 (v : (⟨S10000, .i1⟩ : BufTy).Contents Val) : (TRef.of (sig := sig) (T := ⟨S10000, .i1⟩) main_v12).toBuf v = v := rfl
theorem ofBuf_main_v12 (v : (⟨S10000, .i1⟩ : BufTy).Contents Val) : (TRef.of (sig := sig) (T := ⟨S10000, .i1⟩) main_v12).ofBuf v = v := rfl
theorem toBuf_main_v13 (v : (⟨S10000, .f32⟩ : BufTy).Contents Val) : (TRef.of (sig := sig) (T := ⟨S10000, .f32⟩) main_v13).toBuf v = v := rfl
theorem ofBuf_main_v13 (v : (⟨S10000, .f32⟩ : BufTy).Contents Val) : (TRef.of (sig := sig) (T := ⟨S10000, .f32⟩) main_v13).ofBuf v = v := rfl
theorem toBuf_main_v14 (v : (⟨S10000, .f32⟩ : BufTy).Contents Val) : (TRef.of (sig := sig) (T := ⟨S10000, .f32⟩) main_v14).toBuf v = v := rfl
theorem ofBuf_main_v14 (v : (⟨S10000, .f32⟩ : BufTy).Contents Val) : (TRef.of (sig := sig) (T := ⟨S10000, .f32⟩) main_v14).ofBuf v = v := rfl
theorem toBuf_main_call1_cst (v : (⟨S_, .f32⟩ : BufTy).Contents Val) : (TRef.of (sig := sig) (T := ⟨S_, .f32⟩) main_call1_cst).toBuf v = v := rfl
theorem ofBuf_main_call1_cst (v : (⟨S_, .f32⟩ : BufTy).Contents Val) : (TRef.of (sig := sig) (T := ⟨S_, .f32⟩) main_call1_cst).ofBuf v = v := rfl
theorem toBuf_main_call1_v0 (v : (⟨S10000x64, .f32⟩ : BufTy).Contents Val) : (TRef.of (sig := sig) (T := ⟨S10000x64, .f32⟩) main_call1_v0).toBuf v = v := rfl
theorem ofBuf_main_call1_v0 (v : (⟨S10000x64, .f32⟩ : BufTy).Contents Val) : (TRef.of (sig := sig) (T := ⟨S10000x64, .f32⟩) main_call1_v0).ofBuf v = v := rfl
theorem toBuf_main_v47 (v : (⟨S10000x64, .f32⟩ : BufTy).Contents Val) : (TRef.of (sig := sig) (T := ⟨S10000x64, .f32⟩) main_v47).toBuf v = v := rfl
theorem ofBuf_main_v47 (v : (⟨S10000x64, .f32⟩ : BufTy).Contents Val) : (TRef.of (sig := sig) (T := ⟨S10000x64, .f32⟩) main_v47).ofBuf v = v := rfl
theorem toBuf_main_v48 (v : (⟨S10000x64, .f32⟩ : BufTy).Contents Val) : (TRef.of (sig := sig) (T := ⟨S10000x64, .f32⟩) main_v48).toBuf v = v := rfl
theorem ofBuf_main_v48 (v : (⟨S10000x64, .f32⟩ : BufTy).Contents Val) : (TRef.of (sig := sig) (T := ⟨S10000x64, .f32⟩) main_v48).ofBuf v = v := rfl
theorem toBuf_main_cst_12 (v : (⟨S_, .f32⟩ : BufTy).Contents Val) : (TRef.of (sig := sig) (T := ⟨S_, .f32⟩) main_cst_12).toBuf v = v := rfl
theorem ofBuf_main_cst_12 (v : (⟨S_, .f32⟩ : BufTy).Contents Val) : (TRef.of (sig := sig) (T := ⟨S_, .f32⟩) main_cst_12).ofBuf v = v := rfl
theorem toBuf_main_call2_v0 (v : (⟨S_, .f32⟩ : BufTy).Contents Val) : (TRef.of (sig := sig) (T := ⟨S_, .f32⟩) main_call2_v0).toBuf v = v := rfl
theorem ofBuf_main_call2_v0 (v : (⟨S_, .f32⟩ : BufTy).Contents Val) : (TRef.of (sig := sig) (T := ⟨S_, .f32⟩) main_call2_v0).ofBuf v = v := rfl
theorem toBuf_main_call2_v1 (v : (⟨S10000, .f32⟩ : BufTy).Contents Val) : (TRef.of (sig := sig) (T := ⟨S10000, .f32⟩) main_call2_v1).toBuf v = v := rfl
theorem ofBuf_main_call2_v1 (v : (⟨S10000, .f32⟩ : BufTy).Contents Val) : (TRef.of (sig := sig) (T := ⟨S10000, .f32⟩) main_call2_v1).ofBuf v = v := rfl
theorem toBuf_main_v57 (v : (⟨S10000, .i1⟩ : BufTy).Contents Val) : (TRef.of (sig := sig) (T := ⟨S10000, .i1⟩) main_v57).toBuf v = v := rfl
theorem ofBuf_main_v57 (v : (⟨S10000, .i1⟩ : BufTy).Contents Val) : (TRef.of (sig := sig) (T := ⟨S10000, .i1⟩) main_v57).ofBuf v = v := rfl
theorem toBuf_main_v58 (v : (⟨S10000, .f32⟩ : BufTy).Contents Val) : (TRef.of (sig := sig) (T := ⟨S10000, .f32⟩) main_v58).toBuf v = v := rfl
theorem ofBuf_main_v58 (v : (⟨S10000, .f32⟩ : BufTy).Contents Val) : (TRef.of (sig := sig) (T := ⟨S10000, .f32⟩) main_v58).ofBuf v = v := rfl
theorem toBuf_main_v59 (v : (⟨S10000, .f32⟩ : BufTy).Contents Val) : (TRef.of (sig := sig) (T := ⟨S10000, .f32⟩) main_v59).toBuf v = v := rfl
theorem ofBuf_main_v59 (v : (⟨S10000, .f32⟩ : BufTy).Contents Val) : (TRef.of (sig := sig) (T := ⟨S10000, .f32⟩) main_v59).ofBuf v = v := rfl
theorem toBuf_main_call3_cst (v : (⟨S_, .f32⟩ : BufTy).Contents Val) : (TRef.of (sig := sig) (T := ⟨S_, .f32⟩) main_call3_cst).toBuf v = v := rfl
theorem ofBuf_main_call3_cst (v : (⟨S_, .f32⟩ : BufTy).Contents Val) : (TRef.of (sig := sig) (T := ⟨S_, .f32⟩) main_call3_cst).ofBuf v = v := rfl
theorem toBuf_main_call3_v0 (v : (⟨S10000x64, .f32⟩ : BufTy).Contents Val) : (TRef.of (sig := sig) (T := ⟨S10000x64, .f32⟩) main_call3_v0).toBuf v = v := rfl
theorem ofBuf_main_call3_v0 (v : (⟨S10000x64, .f32⟩ : BufTy).Contents Val) : (TRef.of (sig := sig) (T := ⟨S10000x64, .f32⟩) main_call3_v0).ofBuf v = v := rfl
theorem toBuf_main_v92 (v : (⟨S10000x64, .f32⟩ : BufTy).Contents Val) : (TRef.of (sig := sig) (T := ⟨S10000x64, .f32⟩) main_v92).toBuf v = v := rfl
theorem ofBuf_main_v92 (v : (⟨S10000x64, .f32⟩ : BufTy).Contents Val) : (TRef.of (sig := sig) (T := ⟨S10000x64, .f32⟩) main_v92).ofBuf v = v := rfl
theorem toBuf_main_v93 (v : (⟨S10000x64, .f32⟩ : BufTy).Contents Val) : (TRef.of (sig := sig) (T := ⟨S10000x64, .f32⟩) main_v93).toBuf v = v := rfl
theorem ofBuf_main_v93 (v : (⟨S10000x64, .f32⟩ : BufTy).Contents Val) : (TRef.of (sig := sig) (T := ⟨S10000x64, .f32⟩) main_v93).ofBuf v = v := rfl
theorem toBuf_main_cst_20 (v : (⟨S_, .f32⟩ : BufTy).Contents Val) : (TRef.of (sig := sig) (T := ⟨S_, .f32⟩) main_cst_20).toBuf v = v := rfl
theorem ofBuf_main_cst_20 (v : (⟨S_, .f32⟩ : BufTy).Contents Val) : (TRef.of (sig := sig) (T := ⟨S_, .f32⟩) main_cst_20).ofBuf v = v := rfl
theorem toBuf_main_call4_v0 (v : (⟨S_, .f32⟩ : BufTy).Contents Val) : (TRef.of (sig := sig) (T := ⟨S_, .f32⟩) main_call4_v0).toBuf v = v := rfl
theorem ofBuf_main_call4_v0 (v : (⟨S_, .f32⟩ : BufTy).Contents Val) : (TRef.of (sig := sig) (T := ⟨S_, .f32⟩) main_call4_v0).ofBuf v = v := rfl
theorem toBuf_main_call4_v1 (v : (⟨S10000x64, .f32⟩ : BufTy).Contents Val) : (TRef.of (sig := sig) (T := ⟨S10000x64, .f32⟩) main_call4_v1).toBuf v = v := rfl
theorem ofBuf_main_call4_v1 (v : (⟨S10000x64, .f32⟩ : BufTy).Contents Val) : (TRef.of (sig := sig) (T := ⟨S10000x64, .f32⟩) main_call4_v1).ofBuf v = v := rfl
theorem toBuf_main_call4_v2 (v : (⟨S10000x64, .f32⟩ : BufTy).Contents Val) : (TRef.of (sig := sig) (T := ⟨S10000x64, .f32⟩) main_call4_v2).toBuf v = v := rfl
theorem ofBuf_main_call4_v2 (v : (⟨S10000x64, .f32⟩ : BufTy).Contents Val) : (TRef.of (sig := sig) (T := ⟨S10000x64, .f32⟩) main_call4_v2).ofBuf v = v := rfl
theorem toBuf_main_cst_21 (v : (⟨S_, .f32⟩ : BufTy).Contents Val) : (TRef.of (sig := sig) (T := ⟨S_, .f32⟩) main_cst_21).toBuf v = v := rfl
theorem ofBuf_main_cst_21 (v : (⟨S_, .f32⟩ : BufTy).Contents Val) : (TRef.of (sig := sig) (T := ⟨S_, .f32⟩) main_cst_21).ofBuf v = v := rfl
theorem toBuf_main_call4_v3 (v : (⟨S_, .f32⟩ : BufTy).Contents Val) : (TRef.of (sig := sig) (T := ⟨S_, .f32⟩) main_call4_v3).toBuf v = v := rfl
theorem ofBuf_main_call4_v3 (v : (⟨S_, .f32⟩ : BufTy).Contents Val) : (TRef.of (sig := sig) (T := ⟨S_, .f32⟩) main_call4_v3).ofBuf v = v := rfl
theorem toBuf_main_call4_v4 (v : (⟨S10000x64, .f32⟩ : BufTy).Contents Val) : (TRef.of (sig := sig) (T := ⟨S10000x64, .f32⟩) main_call4_v4).toBuf v = v := rfl
theorem ofBuf_main_call4_v4 (v : (⟨S10000x64, .f32⟩ : BufTy).Contents Val) : (TRef.of (sig := sig) (T := ⟨S10000x64, .f32⟩) main_call4_v4).ofBuf v = v := rfl
theorem toBuf_main_v94 (v : (⟨S10000x64, .f32⟩ : BufTy).Contents Val) : (TRef.of (sig := sig) (T := ⟨S10000x64, .f32⟩) main_v94).toBuf v = v := rfl
theorem ofBuf_main_v94 (v : (⟨S10000x64, .f32⟩ : BufTy).Contents Val) : (TRef.of (sig := sig) (T := ⟨S10000x64, .f32⟩) main_v94).ofBuf v = v := rfl
theorem toBuf_main_call5_cst (v : (⟨S_, .f32⟩ : BufTy).Contents Val) : (TRef.of (sig := sig) (T := ⟨S_, .f32⟩) main_call5_cst).toBuf v = v := rfl
theorem ofBuf_main_call5_cst (v : (⟨S_, .f32⟩ : BufTy).Contents Val) : (TRef.of (sig := sig) (T := ⟨S_, .f32⟩) main_call5_cst).ofBuf v = v := rfl
theorem toBuf_main_call5_v0 (v : (⟨S1x64, .f32⟩ : BufTy).Contents Val) : (TRef.of (sig := sig) (T := ⟨S1x64, .f32⟩) main_call5_v0).toBuf v = v := rfl
theorem ofBuf_main_call5_v0 (v : (⟨S1x64, .f32⟩ : BufTy).Contents Val) : (TRef.of (sig := sig) (T := ⟨S1x64, .f32⟩) main_call5_v0).ofBuf v = v := rfl
theorem toBuf_main_v100 (v : (⟨S1x64, .f32⟩ : BufTy).Contents Val) : (TRef.of (sig := sig) (T := ⟨S1x64, .f32⟩) main_v100).toBuf v = v := rfl
theorem ofBuf_main_v100 (v : (⟨S1x64, .f32⟩ : BufTy).Contents Val) : (TRef.of (sig := sig) (T := ⟨S1x64, .f32⟩) main_v100).ofBuf v = v := rfl
theorem toBuf_main_v101 (v : (⟨S1x64, .f32⟩ : BufTy).Contents Val) : (TRef.of (sig := sig) (T := ⟨S1x64, .f32⟩) main_v101).toBuf v = v := rfl
theorem ofBuf_main_v101 (v : (⟨S1x64, .f32⟩ : BufTy).Contents Val) : (TRef.of (sig := sig) (T := ⟨S1x64, .f32⟩) main_v101).ofBuf v = v := rfl

end Cert.KernelIdeal.Acc

end
-- ==== Proof.KI.Prefix.lean ====
/-
  The host lines before the region, read back. The node features (the two graph-convolution layers, clipped and laid
  out as one row) and the weather features (the two dense layers on the rain history) that the region and the lines
  after it find are the composed operations of the argument arrays. The composed terms are long; they are recorded as
  found, each with the equation that says the region's entry contents are that term.
-/
import proofs.«140559_j39006892982336_1_alg».proof.Proof.KI.Data
import proofs.«140559_j39006892982336_1_alg».proof.Proof.KI.Casts
import Idealize.ShloMosaic.Lib.StableHlo.Run
import Idealize.ShloMosaic.Lib.ValueIdx
import Idealize.ShloMosaic.PureOps.Ideal

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open scoped BigOperators

open Idealize.ShloMosaic.StableHlo

variable (m : (ℓ : Loc nD τ sig) → Buf (Elt Ideal) ℓ)

set_option maxRecDepth 65536 in
set_option maxHeartbeats 4000000 in
/-- The weather features as the composed operations of the argument arrays. -/
noncomputable def weatherTerm (c : Dev nD) : { X : FVec Ideal S1x64 .f32 // V m c main_v105 = X } := by
  refine ⟨?_, ?_⟩
  case refine_2 =>
    dsimp only [V, V0]
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
    after_results_simp <;> ((try simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14, toBuf_main_call1_cst, ofBuf_main_call1_cst, toBuf_main_call1_v0, ofBuf_main_call1_v0, toBuf_main_v47, ofBuf_main_v47, toBuf_main_v48, ofBuf_main_v48, toBuf_main_cst_12, ofBuf_main_cst_12, toBuf_main_call2_v0, ofBuf_main_call2_v0, toBuf_main_call2_v1, ofBuf_main_call2_v1, toBuf_main_v57, ofBuf_main_v57, toBuf_main_v58, ofBuf_main_v58, toBuf_main_v59, ofBuf_main_v59, toBuf_main_call3_cst, ofBuf_main_call3_cst, toBuf_main_call3_v0, ofBuf_main_call3_v0, toBuf_main_v92, ofBuf_main_v92, toBuf_main_v93, ofBuf_main_v93, toBuf_main_cst_20, ofBuf_main_cst_20, toBuf_main_call4_v0, ofBuf_main_call4_v0, toBuf_main_call4_v1, ofBuf_main_call4_v1, toBuf_main_call4_v2, ofBuf_main_call4_v2, toBuf_main_cst_21, ofBuf_main_cst_21, toBuf_main_call4_v3, ofBuf_main_call4_v3, toBuf_main_call4_v4, ofBuf_main_call4_v4, toBuf_main_v94, ofBuf_main_v94, toBuf_main_call5_cst, ofBuf_main_call5_cst, toBuf_main_call5_v0, ofBuf_main_call5_v0, toBuf_main_v100, ofBuf_main_v100, toBuf_main_v101, ofBuf_main_v101]); rfl)

set_option maxRecDepth 65536 in
set_option maxHeartbeats 8000000 in
/-- The node features as the composed operations of the argument arrays. -/
noncomputable def featTerm (c : Dev nD) : { X : FVec Ideal S1x640000 .f32 // V m c main_v95 = X } := by
  refine ⟨?_, ?_⟩
  case refine_2 =>
    dsimp only [V, V0]
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
    after_results_simp <;> ((try simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14, toBuf_main_call1_cst, ofBuf_main_call1_cst, toBuf_main_call1_v0, ofBuf_main_call1_v0, toBuf_main_v47, ofBuf_main_v47, toBuf_main_v48, ofBuf_main_v48, toBuf_main_cst_12, ofBuf_main_cst_12, toBuf_main_call2_v0, ofBuf_main_call2_v0, toBuf_main_call2_v1, ofBuf_main_call2_v1, toBuf_main_v57, ofBuf_main_v57, toBuf_main_v58, ofBuf_main_v58, toBuf_main_v59, ofBuf_main_v59, toBuf_main_call3_cst, ofBuf_main_call3_cst, toBuf_main_call3_v0, ofBuf_main_call3_v0, toBuf_main_v92, ofBuf_main_v92, toBuf_main_v93, ofBuf_main_v93, toBuf_main_cst_20, ofBuf_main_cst_20, toBuf_main_call4_v0, ofBuf_main_call4_v0, toBuf_main_call4_v1, ofBuf_main_call4_v1, toBuf_main_call4_v2, ofBuf_main_call4_v2, toBuf_main_cst_21, ofBuf_main_cst_21, toBuf_main_call4_v3, ofBuf_main_call4_v3, toBuf_main_call4_v4, ofBuf_main_call4_v4, toBuf_main_v94, ofBuf_main_v94, toBuf_main_call5_cst, ofBuf_main_call5_cst, toBuf_main_call5_v0, ofBuf_main_call5_v0, toBuf_main_v100, ofBuf_main_v100, toBuf_main_v101, ofBuf_main_v101]); rfl)

end Cert.KernelIdeal.Acc

end
-- ==== Proof.RefTail.lean ====
/-
  The reference's last layers. Its result is `head` of the hidden layer's pre-activation, and the pre-activation is
  ONE contraction of the joined feature vector (node features, then weather features) with the transposed weight matrix:
  lane `q` is the sum over all 640064 columns `K` of the joined vector's entry `K` times the matrix's entry `(q, K)`.
-/
import proofs.«140559_j39006892982336_1_alg».proof.Proof.RefRun
import proofs.«140559_j39006892982336_1_alg».proof.Proof.Spec
import Idealize.ShloMosaic.Lib.Pipeline.Value
import Idealize.ShloMosaic.PureOps.Ideal.Laws

noncomputable section

namespace Cert.ReferenceIdeal.Tail

open Cert.ReferenceIdeal Cert.ReferenceIdeal.Gen
open Idealize.ShloMosaic Idealize.ShloMosaic.TcCoe Idealize.ShloMosaic.ValueIdx
open scoped BigOperators

/-- The layers after the hidden layer's pre-activation `pre`: the bias, the rectifier, the output layer and its
    bias, the result as a vector. -/
def head (pre : FVec Ideal S1x128 .f32) (b13 : FVec Ideal S128 .f32) (W14 : FVec Ideal S10000x128 .f32) (b15 : FVec Ideal S10000 .f32) :
    FVec Ideal S10000 .f32 :=
  shapeCast S10000 (addf (F := Ideal) (Host.dotGeneral (F := Ideal) dot_S1x128_S128x10000_S1x10000_1_0_0_1_n_n none
      (maximumf (F := Ideal) (addf (F := Ideal) pre (broadcastInDim S1x128 ![1] bcast_S128_S1x128_1 b13))
        (broadcastInDim S1x128 ![] bcast_S_S1x128 (constant (F := Ideal) S_ .f32 0x00000000#32)))
      (transpose S128x10000 [1, 0] W14 transposes_S10000x128_S128x10000_1_0))
    (broadcastInDim S1x10000 ![1] bcast_S10000_S1x10000_1 b15)) shapeCasts_S1x10000_S10000

/-- The pre-activation: the joined feature vector against the transposed weight matrix. -/
def joinedDot (nf : FVec Ideal S1x640000 .f32) (wf : FVec Ideal S1x64 .f32) (W : FVec Ideal S128x640064 .f32) : FVec Ideal S1x128 .f32 :=
  Host.dotGeneral (F := Ideal) dot_S1x640064_S640064x128_S1x128_1_0_0_1_n_n none
    (concatenate S1x640064 1 [⟨S1x640000, nf⟩, ⟨S1x64, wf⟩] concatenates_S1x640000_S1x64_S1x640064_d1)
    (transpose S640064x128 [1, 0] W transposes_S128x640064_S640064x128_1_0)

local notation "dJ" => dot_S1x640064_S640064x128_S1x128_1_0_0_1_n_n

theorem dj_lhs0 (i : S1x128.Idx) (k : (dJ).contr.Idx) : ((dJ).lhsIdx i k 0).val = (i 0).val := by
  unfold DotDims.lhsIdx
  rw [dif_neg (show ¬(0 : Fin S1x640064.rank) ∈ (dJ).lhsBatch by decide), dif_pos (show (0 : Fin S1x640064.rank) ∈ (dJ).lhsNonContracting by decide)]
  rfl
theorem dj_lhs1 (i : S1x128.Idx) (k : (dJ).contr.Idx) : ((dJ).lhsIdx i k 1).val = (k ⟨0, by decide⟩).val :=
  (dJ).lhsIdx_val_of_single rfl i k
theorem dj_rhs0 (i : S1x128.Idx) (k : (dJ).contr.Idx) : ((dJ).rhsIdx i k 0).val = (k ⟨0, by decide⟩).val :=
  (dJ).rhsIdx_val_of_single rfl i k
theorem dj_rhs1 (i : S1x128.Idx) (k : (dJ).contr.Idx) : ((dJ).rhsIdx i k 1).val = (i 1).val := by
  unfold DotDims.rhsIdx
  rw [dif_neg (show ¬(1 : Fin S640064x128.rank) ∈ (dJ).rhsBatch by decide), dif_pos (show (1 : Fin S640064x128.rank) ∈ (dJ).rhsNonContracting by decide)]
  rfl

/-- Lane `q` of the pre-activation is the joined vector's contraction with row `q` of the weight matrix. -/
theorem joinedDot_apply (nf : FVec Ideal S1x640000 .f32) (wf : FVec Ideal S1x64 .f32) (W : FVec Ideal S128x640064 .f32) (p : Fin 1) (q : Fin 128) :
    joinedDot nf wf W (ix2 p q) = Cert.Spec.joinedPart nf wf W q := by
  unfold joinedDot Cert.Spec.joinedPart
  simp only [Host.dotGeneral]
  rw [Ideal.dotGeneral_apply, ← Equiv.sum_comp (contrEquiv1 (dJ) 640064 rfl rfl).symm]
  refine Finset.sum_congr rfl fun K _ => ?_
  have hk := contrEquiv1_symm_val (dJ) 640064 rfl rfl K
  have el : (dJ).lhsIdx (ix2 p q) ((contrEquiv1 (dJ) 640064 rfl rfl).symm K) = ix2 p K := funext fun a => Fin.ext (by
    match a with
    | ⟨0, _⟩ => exact dj_lhs0 _ _
    | ⟨1, _⟩ => exact (dj_lhs1 _ _).trans hk)
  have er : (dJ).rhsIdx (ix2 p q) ((contrEquiv1 (dJ) 640064 rfl rfl).symm K) = ix2 K q := funext fun a => Fin.ext (by
    match a with
    | ⟨0, _⟩ => exact (dj_rhs0 _ _).trans hk
    | ⟨1, _⟩ => exact dj_rhs1 _ _)
  rw [el, er]
  have hp : p.val = 0 := by have := p.isLt; omega
  refine congrArg₂ (· * ·) ?_ ?_
  · unfold Cert.Spec.joinedAt
    split
    · rename_i h
      exact concatenate_pair_apply_left (1 : Fin 2) nf wf concatenates_S1x640000_S1x64_S1x640064_d1 (ix2 p K) rfl (ix2 (0 : Fin 1) ⟨K.val, h⟩)
        (fun b => by
          match b with
          | ⟨0, _⟩ => exact hp.symm
          | ⟨1, _⟩ => rfl)
    · rename_i h
      exact concatenate_pair_apply_right (1 : Fin 2) nf wf concatenates_S1x640000_S1x64_S1x640064_d1 (ix2 p K) rfl rfl
        (ix2 (0 : Fin 1) ⟨K.val - 640000, by have := K.isLt; omega⟩)
        (fun b hb => by
          match b with
          | ⟨0, _⟩ => exact hp.symm
          | ⟨1, _⟩ => exact absurd rfl hb)
        (by show K.val - 640000 + 640000 = K.val; omega)
  · exact transpose_apply [1, 0] W transposes_S128x640064_S640064x128_1_0 (ix2 K q) (ix2 q K) (fun b => by
      match b with
      | ⟨0, _⟩ => rfl
      | ⟨1, _⟩ => rfl)

end Cert.ReferenceIdeal.Tail

end
-- ==== Proof.Join.lean ====
/-
  The two idealized programs compute one function. Their host lines agree up to the node features and the weather
  features; then the reference contracts the joined feature vector with the whole weight matrix, while the kernel's
  grid accumulates the node part, the lines after it add the weather part, and both apply the same last layers.
  Lane by lane the joined contraction is the node part plus the weather part (a finite sum split at index 640000).
-/
import proofs.«140559_j39006892982336_1_alg».proof.Defs
import proofs.«140559_j39006892982336_1_alg».proof.Proof.Gen.Pre_finite_inputs
import proofs.«140559_j39006892982336_1_alg».proof.Proof.KI.Result
import proofs.«140559_j39006892982336_1_alg».proof.Proof.KI.Prefix
import proofs.«140559_j39006892982336_1_alg».proof.Proof.RefTail

set_option maxRecDepth 65536

noncomputable section

namespace Cert.Proof.Join

open Idealize.ShloMosaic Idealize.ShloMosaic.TcCoe Idealize.ShloMosaic.ValueIdx Idealize.SL.Sem

/-- The last layers are the same function in both programs. -/
theorem head_eq (pre : FVec Ideal Cert.KernelIdeal.S1x128 .f32) (b13 : FVec Ideal Cert.KernelIdeal.S128 .f32) (W14 : FVec Ideal Cert.KernelIdeal.S10000x128 .f32)
    (b15 : FVec Ideal Cert.KernelIdeal.S10000 .f32) :
    Cert.ReferenceIdeal.Tail.head pre b13 W14 b15 = Cert.KernelIdeal.Acc.head pre b13 W14 b15 := rfl

/-- The hidden layer's pre-activation: the reference's one contraction is the kernel's node part plus weather part. -/
theorem pre_eq (nf : FVec Ideal Cert.KernelIdeal.S1x640000 .f32) (wf : FVec Ideal Cert.KernelIdeal.S1x64 .f32) (W : FVec Ideal Cert.KernelIdeal.S128x640064 .f32) :
    Cert.ReferenceIdeal.Tail.joinedDot nf wf W
      = addf (F := Ideal) (fun j : Cert.KernelIdeal.S1x128.Idx => Cert.Spec.nodePart nf W ⟨(j 1).val, (j 1).isLt⟩) (Cert.KernelIdeal.Acc.weatherDot wf W) := by
  funext j
  obtain ⟨p, q, rfl⟩ : ∃ (p : Fin 1) (q : Fin 128), j = ix2 p q := ⟨j 0, j 1, eq_ix2 j⟩
  rw [Cert.ReferenceIdeal.Tail.joinedDot_apply, addf_apply, Cert.KernelIdeal.Acc.weatherDot_apply]
  exact Cert.Spec.joined_eq nf wf W q

/-- The kernel's result depends on the arrays only through these six. -/
theorem kres_congr {nf nf' : FVec Ideal Cert.KernelIdeal.S1x640000 .f32} {wf wf' : FVec Ideal Cert.KernelIdeal.S1x64 .f32} {W W' : FVec Ideal Cert.KernelIdeal.S128x640064 .f32}
    {b13 b13' : FVec Ideal Cert.KernelIdeal.S128 .f32} {W14 W14' : FVec Ideal Cert.KernelIdeal.S10000x128 .f32} {b15 b15' : FVec Ideal Cert.KernelIdeal.S10000 .f32}
    (h1 : nf = nf') (h2 : wf = wf') (h3 : W = W') (h4 : b13 = b13') (h5 : W14 = W14') (h6 : b15 = b15') :
    Cert.KernelIdeal.Acc.head (addf (F := Ideal) (fun j : Cert.KernelIdeal.S1x128.Idx => Cert.Spec.nodePart nf W ⟨(j 1).val, (j 1).isLt⟩) (Cert.KernelIdeal.Acc.weatherDot wf W)) b13 W14 b15
      = Cert.KernelIdeal.Acc.head (addf (F := Ideal) (fun j : Cert.KernelIdeal.S1x128.Idx => Cert.Spec.nodePart nf' W' ⟨(j 1).val, (j 1).isLt⟩) (Cert.KernelIdeal.Acc.weatherDot wf' W')) b13' W14' b15' := by
  subst h1 h2 h3 h4 h5 h6; rfl

set_option maxHeartbeats 8000000 in
/-- From memories that agree on the arguments the two idealized programs end with equal results. -/
theorem algebraic : Cert.algebraic_KernelIdeal_ReferenceIdeal := by
  intro m ρ m' ρ' _ hagree
  refine ⟨fun c => Cert.KernelIdeal.Acc.kres m c, Cert.KernelIdeal.Acc.run_value m ρ, ?_⟩
  refine (θ_run Cert.ReferenceIdeal.defs _ _).mono (fun _ h c => ⟨(h c).1.trans ?_, (h c).2⟩) (Cert.ReferenceIdeal.ValueP.run (F := Ideal) m' ρ')
  obtain ⟨h0, h1, h2, h3, h4, h5, h6, h7, h8, h9, h10, h11, h12, h13, h14, h15⟩ := hagree c
  unfold Cert.ReferenceIdeal.ValueP.res_main_v116
  rw [h0, h1, h2, h3, h4, h5, h6, h7, h8, h9, h10, h11, h12, h13, h14, h15]
  refine Eq.trans (b := Cert.ReferenceIdeal.Tail.head (Cert.ReferenceIdeal.Tail.joinedDot _ _ (m ((c.tc : Thread Cert.KernelIdeal.nD Cert.KernelIdeal.τ).loc Cert.KernelIdeal.main_arg12)))
      (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      (m ((c.tc : Thread Cert.KernelIdeal.nD Cert.KernelIdeal.τ).loc Cert.KernelIdeal.main_arg15))) rfl ?_
  rw [head_eq, pre_eq]
  unfold Cert.KernelIdeal.Acc.kres Cert.KernelIdeal.Acc.resArr
  refine kres_congr ?_ ?_ ?_ ?_ ?_ ?_
  · exact ((Cert.KernelIdeal.Acc.featTerm m c).2.trans rfl).symm
  · exact ((Cert.KernelIdeal.Acc.weatherTerm m c).2.trans rfl).symm
  · exact (Cert.KernelIdeal.Gen.V_main_arg12 m c).symm
  · exact (Cert.KernelIdeal.Gen.V_main_arg13 m c).symm
  · exact (Cert.KernelIdeal.Gen.V_main_arg14 m c).symm
  · exact (Cert.KernelIdeal.Gen.V_main_arg15 m c).symm

end Cert.Proof.Join

end
-- ==== Proof.lean ====
/-
  The certificate of a graph-network forecaster whose one large layer — 128 hidden units over 640064 features —
  is computed by a reduction kernel. The kernel streams the first 640000 columns of the weight matrix through its grid of
  twenty points, accumulating the node features' contribution in a scratch buffer; the host adds the weather features'
  contribution from the last 64 columns. The reference contracts the joined feature vector in one product. At the ideal
  values the two agree by splitting a finite sum, with no use of the inputs' finiteness.

  The three frames: each kernel program's from its run through the pipeline (the body at the first point, the middle
  points and the last point; the accumulator carried in the region's invariant), the reference's from its run read back.
  The idealization rewrote nothing.
-/
import proofs.«140559_j39006892982336_1_alg».proof.Defs
import proofs.«140559_j39006892982336_1_alg».proof.Proof.Gen.Kernel
import proofs.«140559_j39006892982336_1_alg».proof.Proof.Gen.Kernel.Skeleton
import proofs.«140559_j39006892982336_1_alg».proof.Proof.Gen.Kernel.Launch
import proofs.«140559_j39006892982336_1_alg».proof.Proof.Gen.Kernel.Points
import proofs.«140559_j39006892982336_1_alg».proof.Proof.Gen.Kernel.Frame
import proofs.«140559_j39006892982336_1_alg».proof.Proof.Gen.KernelIdeal
import proofs.«140559_j39006892982336_1_alg».proof.Proof.Gen.KernelIdeal.Skeleton
import proofs.«140559_j39006892982336_1_alg».proof.Proof.Gen.KernelIdeal.Launch
import proofs.«140559_j39006892982336_1_alg».proof.Proof.Gen.KernelIdeal.Points
import proofs.«140559_j39006892982336_1_alg».proof.Proof.Gen.KernelIdeal.Frame
import proofs.«140559_j39006892982336_1_alg».proof.Proof.Gen.ReferenceIdeal
import proofs.«140559_j39006892982336_1_alg».proof.Proof.Gen.Pre_finite_inputs
import proofs.«140559_j39006892982336_1_alg».proof.Proof.K.Data
import proofs.«140559_j39006892982336_1_alg».proof.Proof.Join
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Acc.frame m ρ
theorem frame_kernelIdeal : Cert.frame_KernelIdeal := fun m ρ _ => Cert.KernelIdeal.Acc.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Join.algebraic⟩

end Cert.Proof

end
